-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x3x4096 : Shape := ⟨3, ![8, 3, 4096]⟩
abbrev S8x4096 : Shape := ⟨2, ![8, 4096]⟩
abbrev S2x8x4096 : Shape := ⟨3, ![2, 8, 4096]⟩
abbrev S8x3x128 : Shape := ⟨3, ![8, 3, 128]⟩
abbrev S8x128 : Shape := ⟨2, ![8, 128]⟩
abbrev S1x8x4096 : Shape := ⟨3, ![1, 8, 4096]⟩
abbrev S8x5x4096 : Shape := ⟨3, ![8, 5, 4096]⟩
abbrev S8x1x4096 : Shape := ⟨3, ![8, 1, 4096]⟩
abbrev S8x1x128 : Shape := ⟨3, ![8, 1, 128]⟩
abbrev S8x5x128 : Shape := ⟨3, ![8, 5, 128]⟩
abbrev S8x128x4096 : Shape := ⟨3, ![8, 128, 4096]⟩
abbrev S_ : Shape := ⟨0, ![]⟩
abbrev S8 : Shape := ⟨1, ![8]⟩

abbrev nBuf : Space → Nat
  | .hbm => 19
  | .vmem => 9
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x3x4096, .f32⟩
  | .hbm, ⟨3, _⟩ => ⟨S8x3x4096, .f32⟩
  | .hbm, ⟨4, _⟩ => ⟨S8x4096, .f32⟩
  | .hbm, ⟨5, _⟩ => ⟨S2x8x4096, .f32⟩
  | .hbm, ⟨6, _⟩ => ⟨S_, .f32⟩
  | .hbm, ⟨7, _⟩ => ⟨S8x4096, .f32⟩
  | .hbm, ⟨8, _⟩ => ⟨S_, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S8, .f32⟩
  | .local _ .vmem, ⟨0, _⟩ => ⟨S8x3x128, .f32⟩
  | .local _ .vmem, ⟨1, _⟩ => ⟨S8x3x128, .f32⟩
  | .local _ .vmem, ⟨2, _⟩ => ⟨S8x3x4096, .f32⟩
  | .local _ .vmem, ⟨3, _⟩ => ⟨S8x128, .f32⟩
  | .local _ .vmem, ⟨4, _⟩ => ⟨S8x128, .f32⟩
  | .local _ .vmem, ⟨5, _⟩ => ⟨S1x8x4096, .f32⟩
  | .local _ .vmem, ⟨6, _⟩ => ⟨S1x8x4096, .f32⟩
  | .local _ .vmem, ⟨7, _⟩ => ⟨S8x4096, .f32⟩
  | .local _ .vmem, ⟨8, _⟩ => ⟨S8x5x4096, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v22 : BitVec 1 := Scalar.cmpi .eq arg1 c15_i32
  let v23 : BitVec 32 := Scalar.extui v22
  let c0_i32_17 : BitVec 32 := 0#32
  let v24 : BitVec 1 := Scalar.cmpi .ne v23 c0_i32_17
  v24

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x3x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x3x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S8x4096x3_S8x3x4096_0_2_1 : S8x4096x3.Transposes [0, 2, 1] S8x3x4096
  inb_S8x3x4096_S8x3x4096_0_0_0 : ∀ a, (![0, 0, 0] : Fin 3 → Nat) a + S8x3x4096.size a ≤ S8x3x4096.size a
  h_S8x3x4096 : 0 < S8x3x4096.numel
  shapeCasts_S8x3x4096_S8x3x4096 : S8x3x4096.ShapeCasts S8x3x4096
  reduces_S8x3x4096_S8x4096 : S8x3x4096.Reduces [1] S8x4096
  shapeCasts_S8x4096_S8x1x4096 : S8x4096.ShapeCasts S8x1x4096
  concatenates_S8x3x4096_S8x1x4096_S8x1x4096_S8x5x4096_d1 : Shape.Concatenates [S8x3x4096, S8x1x4096, S8x1x4096] S8x5x4096 1
  inb_S8x5x4096_S8x5x4096_0_0_0 : ∀ a, (![0, 0, 0] : Fin 3 → Nat) a + S8x5x4096.size a ≤ S8x5x4096.size a
  h_S8x5x4096 : 0 < S8x5x4096.numel
  shapeCasts_S8x5x4096_S8x5x4096 : S8x5x4096.ShapeCasts S8x5x4096
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  inb_S8x3x128_S8x3x128_0_0_0 : ∀ a, (![0, 0, 0] : Fin 3 → Nat) a + S8x3x128.size a ≤ S8x3x128.size a
  h_S8x3x128 : 0 < S8x3x128.numel
  shapeCasts_S8x3x128_S8x3x128 : S8x3x128.ShapeCasts S8x3x128
  reduces_S8x3x128_S8x128 : S8x3x128.Reduces [1] S8x128
  shapeCasts_S8x128_S8x1x128 : S8x128.ShapeCasts S8x1x128
  concatenates_S8x3x128_S8x1x128_S8x1x128_S8x5x128_d1 : Shape.Concatenates [S8x3x128, S8x1x128, S8x1x128] S8x5x128 1
  reduces_S8x128x4096_S8x128 : S8x128x4096.Reduces [2] S8x128
  inb_S8x128_S8x128_0_0 : ∀ a, (![0, 0] : Fin 2 → Nat) a + S8x128.size a ≤ S8x128.size a
  h_S8x128 : 0 < S8x128.numel
  reduces_S8x128x4096_S8x4096 : S8x128x4096.Reduces [1] S8x4096
  shapeCasts_S8x4096_S1x8x4096 : S8x4096.ShapeCasts S1x8x4096
  inb_S1x8x4096_S1x8x4096_0_0_0 : ∀ a, (![0, 0, 0] : Fin 3 → Nat) a + S1x8x4096.size a ≤ S1x8x4096.size a
  h_S1x8x4096 : 0 < S1x8x4096.numel
  reducesTo_S2x8x4096_S8x4096_d0 : S2x8x4096.ReducesTo [0] S8x4096
  h_S_ : 0 < S_.numel
  reducesTo_S8x4096_S8_d1 : S8x4096.ReducesTo [1] S8
  bcast_S_S8 : S_.BroadcastsInDim S8 (![] : Fin 0 → Fin S8.rank)
  dot_S8x5x128_S8x5x4096_S8x128x4096_1_1_2_2_0_0_wf : DotDims.WF S8x5x128 S8x5x4096 S8x128x4096 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x3x128.size a ≤ S8x3x4096.size a
  hwx0_0 : ∀ i : grid0.Coords, EltTy.bits .f32 = 32 ∨ (Rect.block (s := S8x3x4096) S8x3x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x3x4096.size a ≤ S8x3x4096.size a
  hwx0_1 : ∀ i : grid0.Coords, EltTy.bits .f32 = 32 ∨ (Rect.block (s := S8x3x4096) S8x3x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x4096.size a
  hwx0_2 : ∀ i : grid0.Coords, EltTy.bits .f32 = 32 ∨ (Rect.block (s := S8x4096) S8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x4096.size a ≤ S2x8x4096.size a
  hwx0_3 : ∀ i : grid0.Coords, EltTy.bits .f32 = 32 ∨ (Rect.block (s := S2x8x4096) S1x8x4096.size (cc0_transform_3 i) (hinb0_3 i)).WholeWords (EltTy.packing .f32)

variable [Facts₀]

def dot_S8x5x128_S8x5x4096_S8x128x4096_1_1_2_2_0_0 : DotDims S8x5x128 S8x5x4096 S8x128x4096 where
  lhsContracting := [1]
  rhsContracting := [1]
  lhsNonContracting := [2]
  rhsNonContracting := [2]
  lhsBatch := [0]
  rhsBatch := [0]
  wf := dot_S8x5x128_S8x5x4096_S8x128x4096_1_1_2_2_0_0_wf

abbrev win0_0 : Pipeline.Window sig grid0 :=
  Pipeline.Window.ofSpec (Memref.whole main_v0) S8x3x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x3x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x8x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S8 : Shape := ⟨1, ![8]⟩

abbrev nBuf : Space → Nat
  | .hbm => 33
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096, .f32⟩
  | .hbm, ⟨20, _⟩ => ⟨S_, .f32⟩
  | .hbm, ⟨21, _⟩ => ⟨S8x4096, .f32⟩
  | .hbm, ⟨22, _⟩ => ⟨S_, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S8, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x4096_S8_d1 : S8x4096.ReducesTo [1] S8
  bcast_S_S8 : S_.BroadcastsInDim S8 (![] : Fin 0 → Fin S8.rank)
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.MinLaws.lean ====
/- Order facts about minima over the extended reals, and the float words this kernel spells.

   A minimum taken from +∞ over a finite family is the family's infimum; an infimum over the 4096 rows
   can be taken tile by tile (32 tiles of 128 consecutive rows), the running minimum after tile `t` being
   the infimum over the rows below `128 (t + 1)`; and the two halves of the rows together give all rows. -/
import Idealize.ShloMosaic.PureOps.Ideal
import Idealize.ShloMosaic.PureOps.Ideal.Laws
import Mathlib.Tactic

noncomputable section

namespace Chamfer

open Idealize.ShloMosaic

/-! ## The float words -/

/-- `1.0` denotes the real `1`. -/
theorem ofBits_one : Ideal.ofBits .f32 0x3F800000#32 = ((1 : ℝ) : EReal) := by
  simp [Ideal.ofBits, Ideal.ieee, -EReal.coe_mul]; norm_num

/-- `2.0` denotes the real `2`. -/
theorem ofBits_two : Ideal.ofBits .f32 0x40000000#32 = ((2 : ℝ) : EReal) := by
  simp [Ideal.ofBits, Ideal.ieee, -EReal.coe_mul]; norm_num

/-- `-2.0` denotes the real `-2`. -/
theorem ofBits_neg_two : Ideal.ofBits .f32 0xC0000000#32 = ((-2 : ℝ) : EReal) := by
  simp [Ideal.ofBits, Ideal.ieee, -EReal.coe_mul]; norm_num

/-- The word `0x7F800000` denotes +∞. -/
theorem ofBits_inf : Ideal.ofBits .f32 0x7F800000#32 = (⊤ : EReal) := by
  simp [Ideal.ofBits, Ideal.ieee]

/-! ## A minimum from +∞ is an infimum -/

/-- Folding `min` from +∞ over a finite family gives the family's infimum. -/
theorem fold_min_top {N : ℕ} (f : Fin N → EReal) :
    (Finset.univ : Finset (Fin N)).fold min (⊤ : EReal) f = ⨅ k, f k := by
  refine eq_of_forall_le_iff fun z => ?_
  rw [Finset.le_fold_min, le_iInf_iff]
  simp

/-! ## Rows, tiles and halves -/

/-- The infimum of `f` over the rows `lo ≤ p < hi`. -/
def minRows (lo hi : ℕ) (f : Fin 4096 → EReal) : EReal :=
  ⨅ p : Fin 4096, ⨅ _ : lo ≤ p.val ∧ p.val < hi, f p

theorem le_minRows_iff (lo hi : ℕ) (f : Fin 4096 → EReal) (z : EReal) :
    z ≤ minRows lo hi f ↔ ∀ p : Fin 4096, lo ≤ p.val → p.val < hi → z ≤ f p := by
  unfold minRows
  simp only [le_iInf_iff]
  exact ⟨fun h p h1 h2 => h p ⟨h1, h2⟩, fun h p hp => h p hp.1 hp.2⟩

/-- Row `r` of tile `t`: the tiles are 32 runs of 128 consecutive rows. -/
def tileRow (t : Fin 32) (r : Fin 128) : Fin 4096 := ⟨128 * t.val + r.val, by omega⟩

theorem tileRow_val (t : Fin 32) (r : Fin 128) : (tileRow t r).val = 128 * t.val + r.val := rfl

/-- Over no rows the infimum is +∞. -/
theorem minRows_empty (lo : ℕ) (f : Fin 4096 → EReal) : minRows lo lo f = ⊤ :=
  top_unique ((le_minRows_iff lo lo f ⊤).2 fun p h1 h2 => absurd h2 (by omega))

/-- One more tile: the minimum of the infimum over the rows below tile `t` and the tile's own infimum is the
    infimum over the rows up to the tile's end. -/
theorem minRows_step (lo : ℕ) (t : Fin 32) (hlo : lo ≤ 128 * t.val) (f : Fin 4096 → EReal) :
    min (minRows lo (128 * t.val) f) (⨅ r : Fin 128, f (tileRow t r)) = minRows lo (128 * (t.val + 1)) f := by
  refine eq_of_forall_le_iff fun z => ?_
  rw [le_min_iff, le_minRows_iff, le_minRows_iff, le_iInf_iff]
  constructor
  · rintro ⟨h1, h2⟩ p hp1 hp2
    by_cases hp : p.val < 128 * t.val
    · exact h1 p hp1 hp
    · have e : p = tileRow t ⟨p.val - 128 * t.val, by omega⟩ := Fin.ext (by
        rw [tileRow_val]; show p.val = 128 * t.val + (p.val - 128 * t.val); omega)
      rw [e]; exact h2 _
  · intro h
    exact ⟨fun p h1 h2 => h p h1 (by omega),
      fun r => h _ (by rw [tileRow_val]; omega) (by rw [tileRow_val]; have := r.isLt; omega)⟩

/-- The two halves of the rows, 2048 each, together are all the rows. -/
theorem iInf_halves (f : Fin 4096 → EReal) :
    (⨅ c : Fin 2, minRows (2048 * c.val) (2048 * (c.val + 1)) f) = ⨅ p, f p := by
  refine eq_of_forall_le_iff fun z => ?_
  rw [le_iInf_iff, le_iInf_iff]
  constructor
  · intro h p
    have hp := p.isLt
    exact (le_minRows_iff _ _ f z).1 (h ⟨p.val / 2048, by omega⟩) p (by dsimp only; omega) (by dsimp only; omega)
  · intro h c
    exact (le_minRows_iff _ _ f z).2 fun p _ _ => h p

end Chamfer

end
-- ==== Proof.FiniteInputs.lean ====
/- The precondition read back: every entry of both inputs is a real number.

   The precondition takes the absolute value of each entry, compares it strictly below +∞, and takes the
   conjunction of all the comparisons, for each input; the two conjunctions are joined by one more `and`.
   A conjunction that is true has every conjunct true, so `|x| < +∞` holds of every entry `x`; and an
   extended real whose absolute value `max x (-x)` is below +∞ is neither +∞ nor -∞, hence a real. -/
import proofs.«155492_j3762391351367_2_alg».proof.Pre_finite_inputs
import proofs.«155492_j3762391351367_2_alg».proof.Proof.MinLaws
import Idealize.ShloMosaic.Lib.ReduceAll
import Idealize.ShloMosaic.Lib.ValueIdx

noncomputable section

namespace Chamfer

open Idealize.ShloMosaic

/-- An extended real whose absolute value is below +∞ is a real: +∞ has absolute value +∞, and so has -∞. -/
theorem real_of_abs_lt_top (x : EReal) (h : max x (-x) < ⊤) : ∃ r : ℝ, x = (r : EReal) := by
  induction x using EReal.rec with
  | bot => simp at h
  | coe r => exact ⟨r, rfl⟩
  | top => simp at h

/-- A strict comparison of extended reals that comes out true: the left side is below the right. -/
theorem lt_of_cmp_olt (a b : EReal) (h : Ideal.cmp .olt a b = 1#1) : a < b := by
  have h' : BitVec.ofBool (decide (a < b)) = 1#1 := h
  by_contra hn
  simp [hn] at h'

/-- The precondition's test of one entry, `|x| < +∞`, coming out true makes the entry a real. -/
theorem real_of_test (x : EReal)
    (h : Ideal.cmp .olt (max x (-x)) (Ideal.ofBits .f32 0x7F800000#32) = 1#1) : ∃ r : ℝ, x = (r : EReal) := by
  rw [ofBits_inf] at h
  exact real_of_abs_lt_top x (lt_of_cmp_olt _ _ h)

/-- The result of a conjunction over all axes has a single index. -/
instance : Subsingleton Cert.Pre_finite_inputs.S_.Idx := ⟨fun a b => funext fun d => d.elim0⟩

/-- Under the precondition every entry of both inputs is a real number. -/
theorem finite_of_pre [Cert.Pre_finite_inputs.Facts]
    (X Y : FVec Ideal Cert.Pre_finite_inputs.S8x4096x3 .f32)
    (h : Cert.Pre_finite_inputs.fn (F := Ideal) X Y = fun _ => 1#1) :
    (∀ i, ∃ r : ℝ, X i = (r : EReal)) ∧ (∀ i, ∃ r : ℝ, Y i = (r : EReal)) := by
  have h0 := congrFun h ValueIdx.ix0
  dsimp only [Cert.Pre_finite_inputs.fn] at h0
  obtain ⟨hX, hY⟩ := IntOp.andi_eq_one.1 h0
  exact ⟨fun i => real_of_test (X i) (Host.reduce_andi_all _ _ _ _ _ hX i),
    fun i => real_of_test (Y i) (Host.reduce_andi_all _ _ _ _ _ hY i)⟩

end Chamfer

end
-- ==== Proof.Pieces.lean ====
/- What one execution of the kernel body leaves behind, as values of what it found.

   The body runs in one of three ways. At a core's first tile it builds the augmented second operand
   [y; 1; |y|²] and a block of +∞, stores both in the two buffers it keeps between tiles, and reads them back;
   at every tile it multiplies the augmented tile [-2x; |x|²; 1] of the first operand by the kept augmented
   operand, stores the row minima of the product, and lowers the kept running column minimum by the tile's
   column minima; at a core's last tile it also copies the running column minimum out.
   Each lemma says: what a buffer holds after the body is the corresponding pure expression of what the body
   read — the tile, and the two kept buffers (or, at a first tile, the second operand itself). -/
import proofs.«155492_j3762391351367_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## Case B (a middle tile): the carried buffers are read, the row minima stored, the running column minimum updated -/

theorem out_B_2 (c : Dev nD) (i : grid0.Coords) (a2 : Memref sig .tc .vmem S8x3x128 .f32) (h2 : a2.IsWhole) (a3 : Memref sig .tc .vmem S8x3x4096 .f32) (h3 : a3.IsWhole) (a4 : Memref sig .tc .vmem S8x128 .f32) (h4 : a4.IsWhole) (a5 : Memref sig .tc .vmem S1x8x4096 .f32) (h5 : a5.IsWhole) (a6 : Memref sig .tc .vmem S8x4096 .f32) (h6 : a6.IsWhole) (a7 : Memref sig .tc .vmem S8x5x4096 .f32) (h7 : a7.IsWhole) (hc0 : ¬cond0_0 i) (hc1 : ¬cond0_1 i) (x0 : Vec F S8x3x128 .f32) (x1 : Vec F S8x3x4096 .f32) (xs0 : Vec F S8x4096 .f32) (xs1 : Vec F S8x5x4096 .f32) :
    out0_B_2 c i a2 h2 a3 h3 a4 h4 a5 h5 a6 h6 a7 h7 hc0 hc1 x0 x1 xs0 xs1 = k0_pay4 x0 xs1 := by
  unfold out0_B_2
  rw [View.read_writes_eq_canon _ _ _ (cover0_B_2 c i a2 h2 a3 h3 a4 h4 a5 h5 a6 h6 a7 h7 hc0 hc1 x0 x1 xs0 xs1)]
  unfold kernelRun0_B
  dsimp only
  rw [View.canon_unit_zero hz2]
  simp only [View.readAt_eq_ld, h2.read_unread, h3.read_unread, h6.read_unread, h7.read_unread, View.ld_unit_zero (S := S8x3x128) hz3, View.ld_unit_zero (S := S8x3x4096) hz3, View.ld_unit_zero (S := S8x5x4096) hz3, View.ld_unit_zero (S := S8x4096) hz2]

theorem sout_B_0 (c : Dev nD) (i : grid0.Coords) (a2 : Memref sig .tc .vmem S8x3x128 .f32) (h2 : a2.IsWhole) (a3 : Memref sig .tc .vmem S8x3x4096 .f32) (h3 : a3.IsWhole) (a4 : Memref sig .tc .vmem S8x128 .f32) (h4 : a4.IsWhole) (a5 : Memref sig .tc .vmem S1x8x4096 .f32) (h5 : a5.IsWhole) (a6 : Memref sig .tc .vmem S8x4096 .f32) (h6 : a6.IsWhole) (a7 : Memref sig .tc .vmem S8x5x4096 .f32) (h7 : a7.IsWhole) (hc0 : ¬cond0_0 i) (hc1 : ¬cond0_1 i) (x0 : Vec F S8x3x128 .f32) (x1 : Vec F S8x3x4096 .f32) (xs0 : Vec F S8x4096 .f32) (xs1 : Vec F S8x5x4096 .f32) :
    sout0_B_0 c i a2 h2 a3 h3 a4 h4 a5 h5 a6 h6 a7 h7 hc0 hc1 x0 x1 xs0 xs1 = k0_pay5 x0 xs1 xs0 := by
  unfold sout0_B_0
  rw [View.read_writes_eq_canon _ _ _ (scover0_B_0 c i a2 h2 a3 h3 a4 h4 a5 h5 a6 h6 a7 h7 hc0 hc1 x0 x1 xs0 xs1)]
  unfold kernelRun0_B
  dsimp only
  rw [View.canon_unit_zero hz2]
  simp only [View.readAt_eq_ld, h2.read_unread, h3.read_unread, h6.read_unread, h7.read_unread, View.ld_unit_zero (S := S8x3x128) hz3, View.ld_unit_zero (S := S8x3x4096) hz3, View.ld_unit_zero (S := S8x5x4096) hz3, View.ld_unit_zero (S := S8x4096) hz2]

/-! ## Case C (a core's last tile): as case B, and the running column minimum is copied out -/

theorem out_C_2 (c : Dev nD) (i : grid0.Coords) (a2 : Memref sig .tc .vmem S8x3x128 .f32) (h2 : a2.IsWhole) (a3 : Memref sig .tc .vmem S8x3x4096 .f32) (h3 : a3.IsWhole) (a4 : Memref sig .tc .vmem S8x128 .f32) (h4 : a4.IsWhole) (a5 : Memref sig .tc .vmem S1x8x4096 .f32) (h5 : a5.IsWhole) (a6 : Memref sig .tc .vmem S8x4096 .f32) (h6 : a6.IsWhole) (a7 : Memref sig .tc .vmem S8x5x4096 .f32) (h7 : a7.IsWhole) (hc0 : ¬cond0_0 i) (hc1 : cond0_1 i) (x0 : Vec F S8x3x128 .f32) (x1 : Vec F S8x3x4096 .f32) (xs0 : Vec F S8x4096 .f32) (xs1 : Vec F S8x5x4096 .f32) :
    out0_C_2 c i a2 h2 a3 h3 a4 h4 a5 h5 a6 h6 a7 h7 hc0 hc1 x0 x1 xs0 xs1 = k0_pay4 x0 xs1 := by
  unfold out0_C_2
  rw [View.read_writes_eq_canon _ _ _ (cover0_C_2 c i a2 h2 a3 h3 a4 h4 a5 h5 a6 h6 a7 h7 hc0 hc1 x0 x1 xs0 xs1)]
  unfold kernelRun0_C
  dsimp only
  rw [View.canon_unit_zero hz2]
  simp only [View.readAt_eq_ld, h2.read_unread, h3.read_unread, h6.read_unread, h7.read_unread, View.ld_unit_zero (S := S8x3x128) hz3, View.ld_unit_zero (S := S8x3x4096) hz3, View.ld_unit_zero (S := S8x5x4096) hz3, View.ld_unit_zero (S := S8x4096) hz2]

theorem sout_C_0 (c : Dev nD) (i : grid0.Coords) (a2 : Memref sig .tc .vmem S8x3x128 .f32) (h2 : a2.IsWhole) (a3 : Memref sig .tc .vmem S8x3x4096 .f32) (h3 : a3.IsWhole) (a4 : Memref sig .tc .vmem S8x128 .f32) (h4 : a4.IsWhole) (a5 : Memref sig .tc .vmem S1x8x4096 .f32) (h5 : a5.IsWhole) (a6 : Memref sig .tc .vmem S8x4096 .f32) (h6 : a6.IsWhole) (a7 : Memref sig .tc .vmem S8x5x4096 .f32) (h7 : a7.IsWhole) (hc0 : ¬cond0_0 i) (hc1 : cond0_1 i) (x0 : Vec F S8x3x128 .f32) (x1 : Vec F S8x3x4096 .f32) (xs0 : Vec F S8x4096 .f32) (xs1 : Vec F S8x5x4096 .f32) :
    sout0_C_0 c i a2 h2 a3 h3 a4 h4 a5 h5 a6 h6 a7 h7 hc0 hc1 x0 x1 xs0 xs1 = k0_pay5 x0 xs1 xs0 := by
  unfold sout0_C_0
  rw [View.read_writes_eq_canon _ _ _ (scover0_C_0 c i a2 h2 a3 h3 a4 h4 a5 h5 a6 h6 a7 h7 hc0 hc1 x0 x1 xs0 xs1)]
  unfold kernelRun0_C
  dsimp only
  sl_unfold_words
  rw [View.canon_unit_zero (S := S8x4096) hz2]
  simp only [View.readAt_eq_ld, h2.read_unread, h3.read_unread, h6.read_unread, h7.read_unread, View.ld_unit_zero (S := S8x3x128) hz3, View.ld_unit_zero (S := S8x3x4096) hz3, View.ld_unit_zero (S := S8x5x4096) hz3, View.ld_unit_zero (S := S8x4096) hz2]

theorem out_C_3 (c : Dev nD) (i : grid0.Coords) (a2 : Memref sig .tc .vmem S8x3x128 .f32) (h2 : a2.IsWhole) (a3 : Memref sig .tc .vmem S8x3x4096 .f32) (h3 : a3.IsWhole) (a4 : Memref sig .tc .vmem S8x128 .f32) (h4 : a4.IsWhole) (a5 : Memref sig .tc .vmem S1x8x4096 .f32) (h5 : a5.IsWhole) (a6 : Memref sig .tc .vmem S8x4096 .f32) (h6 : a6.IsWhole) (a7 : Memref sig .tc .vmem S8x5x4096 .f32) (h7 : a7.IsWhole) (hc0 : ¬cond0_0 i) (hc1 : cond0_1 i) (x0 : Vec F S8x3x128 .f32) (x1 : Vec F S8x3x4096 .f32) (xs0 : Vec F S8x4096 .f32) (xs1 : Vec F S8x5x4096 .f32) :
    out0_C_3 c i a2 h2 a3 h3 a4 h4 a5 h5 a6 h6 a7 h7 hc0 hc1 x0 x1 xs0 xs1 = k0_pay6 (k0_pay5 x0 xs1 xs0) := by
  unfold out0_C_3
  rw [View.read_writes_eq_canon _ _ _ (cover0_C_3 c i a2 h2 a3 h3 a4 h4 a5 h5 a6 h6 a7 h7 hc0 hc1 x0 x1 xs0 xs1)]
  unfold kernelRun0_C
  dsimp only
  sl_unfold_words
  rw [View.canon_unit_zero (S := S1x8x4096) hz3, View.readCov_unit_zero (S := S8x4096) _ hz2]
  simp only [View.readAt_eq_ld, h2.read_unread, h3.read_unread, h6.read_unread, h7.read_unread, View.ld_unit_zero (S := S8x3x128) hz3, View.ld_unit_zero (S := S8x3x4096) hz3, View.ld_unit_zero (S := S8x5x4096) hz3, View.ld_unit_zero (S := S8x4096) hz2]

/-! ## Case A (a core's first tile): the augmented second operand and the +∞ block are stored, then read back -/

theorem sout_A_1 (c : Dev nD) (i : grid0.Coords) (a2 : Memref sig .tc .vmem S8x3x128 .f32) (h2 : a2.IsWhole) (a3 : Memref sig .tc .vmem S8x3x4096 .f32) (h3 : a3.IsWhole) (a4 : Memref sig .tc .vmem S8x128 .f32) (h4 : a4.IsWhole) (a5 : Memref sig .tc .vmem S1x8x4096 .f32) (h5 : a5.IsWhole) (a6 : Memref sig .tc .vmem S8x4096 .f32) (h6 : a6.IsWhole) (a7 : Memref sig .tc .vmem S8x5x4096 .f32) (h7 : a7.IsWhole) (hc0 : cond0_0 i) (hc1 : ¬cond0_1 i) (x0 : Vec F S8x3x128 .f32) (x1 : Vec F S8x3x4096 .f32) :
    sout0_A_1 c i a2 h2 a3 h3 a4 h4 a5 h5 a6 h6 a7 h7 hc0 hc1 x0 x1 = k0_pay1 x1 := by
  unfold sout0_A_1
  rw [View.read_writes_eq_canon _ _ _ (scover0_A_1 c i a2 h2 a3 h3 a4 h4 a5 h5 a6 h6 a7 h7 hc0 hc1 x0 x1)]
  unfold kernelRun0_A
  dsimp only
  sl_unfold_words
  rw [View.canon_unit_zero (S := S8x5x4096) hz3]
  simp only [View.readAt_eq_ld, h2.read_unread, h3.read_unread, h6.read_unread, h7.read_unread, View.ld_unit_zero (S := S8x3x128) hz3, View.ld_unit_zero (S := S8x3x4096) hz3, View.ld_unit_zero (S := S8x5x4096) hz3, View.ld_unit_zero (S := S8x4096) hz2]

theorem out_A_2 (c : Dev nD) (i : grid0.Coords) (a2 : Memref sig .tc .vmem S8x3x128 .f32) (h2 : a2.IsWhole) (a3 : Memref sig .tc .vmem S8x3x4096 .f32) (h3 : a3.IsWhole) (a4 : Memref sig .tc .vmem S8x128 .f32) (h4 : a4.IsWhole) (a5 : Memref sig .tc .vmem S1x8x4096 .f32) (h5 : a5.IsWhole) (a6 : Memref sig .tc .vmem S8x4096 .f32) (h6 : a6.IsWhole) (a7 : Memref sig .tc .vmem S8x5x4096 .f32) (h7 : a7.IsWhole) (hc0 : cond0_0 i) (hc1 : ¬cond0_1 i) (x0 : Vec F S8x3x128 .f32) (x1 : Vec F S8x3x4096 .f32) :
    out0_A_2 c i a2 h2 a3 h3 a4 h4 a5 h5 a6 h6 a7 h7 hc0 hc1 x0 x1 = k0_pay4 x0 (k0_pay1 x1) := by
  unfold out0_A_2
  rw [View.read_writes_eq_canon _ _ _ (cover0_A_2 c i a2 h2 a3 h3 a4 h4 a5 h5 a6 h6 a7 h7 hc0 hc1 x0 x1)]
  unfold kernelRun0_A
  dsimp only
  sl_unfold_words
  rw [View.canon_unit_zero (S := S8x128) hz2, View.readCov_unit_zero (S := S8x5x4096) _ hz3]
  simp only [View.readAt_eq_ld, h2.read_unread, h3.read_unread, h6.read_unread, h7.read_unread, View.ld_unit_zero (S := S8x3x128) hz3, View.ld_unit_zero (S := S8x3x4096) hz3, View.ld_unit_zero (S := S8x5x4096) hz3, View.ld_unit_zero (S := S8x4096) hz2]

theorem sout_A_0 (c : Dev nD) (i : grid0.Coords) (a2 : Memref sig .tc .vmem S8x3x128 .f32) (h2 : a2.IsWhole) (a3 : Memref sig .tc .vmem S8x3x4096 .f32) (h3 : a3.IsWhole) (a4 : Memref sig .tc .vmem S8x128 .f32) (h4 : a4.IsWhole) (a5 : Memref sig .tc .vmem S1x8x4096 .f32) (h5 : a5.IsWhole) (a6 : Memref sig .tc .vmem S8x4096 .f32) (h6 : a6.IsWhole) (a7 : Memref sig .tc .vmem S8x5x4096 .f32) (h7 : a7.IsWhole) (hc0 : cond0_0 i) (hc1 : ¬cond0_1 i) (x0 : Vec F S8x3x128 .f32) (x1 : Vec F S8x3x4096 .f32) :
    sout0_A_0 c i a2 h2 a3 h3 a4 h4 a5 h5 a6 h6 a7 h7 hc0 hc1 x0 x1 = k0_pay5 x0 (k0_pay1 x1) (k0_pay2 (F := F)) := by
  unfold sout0_A_0
  rw [View.read_writes_eq_canon _ _ _ (scover0_A_0 c i a2 h2 a3 h3 a4 h4 a5 h5 a6 h6 a7 h7 hc0 hc1 x0 x1)]
  unfold kernelRun0_A
  dsimp only
  sl_unfold_words
  rw [View.canon_cons_unit_zero (S := S8x4096) hz2, View.readCov_unit_zero (S := S8x5x4096) _ hz3,
    View.readCov_unit_zero (S := S8x4096) _ hz2]
  simp only [View.readAt_eq_ld, h2.read_unread, h3.read_unread, h6.read_unread, h7.read_unread, View.ld_unit_zero (S := S8x3x128) hz3, View.ld_unit_zero (S := S8x3x4096) hz3, View.ld_unit_zero (S := S8x5x4096) hz3, View.ld_unit_zero (S := S8x4096) hz2]

end Cert.KernelIdeal.Pieces
end
-- ==== Proof.Carried.lean ====
/- What the output buffers and the two kept buffers hold after each grid point, in terms of the body's arithmetic.

   The grid's 32 points fall into three kinds by their step within a core: the first (the kept buffers are built),
   a middle one, the last (the running column minimum is also copied out). For each kind, each buffer after the
   point is the body's pure expression of the point's tile, the second operand, and — after a first point — what
   the point before left in the kept buffers. -/
import proofs.«155492_j3762391351367_2_alg».proof.Proof.Pieces

set_option maxRecDepth 16384

noncomputable section

open Idealize.ShloMosaic Idealize.ShloMosaic.TcCoe Idealize.SL.Sem
open Idealize.ShloMosaic.Pipeline (Dat)

namespace Cert.KernelIdeal.Carried

open Cert.KernelIdeal Cert.KernelIdeal.Gen

variable {F : FTy → Type} [FloatOps F]
variable (m : (ℓ : Loc nD τ sig) → Buf (Elt F) ℓ)

/-! ## A core's first tile (grid points 0 and 16) -/

theorem rowmin_A (c : Dev nD) (t : Fin cfg0.N) (h0 : t.val % 16 = 0) (h1 : ¬t.val % 16 = 15) :
    (outsAt0 m c t.val t.isLt).1 = k0_pay4 (iblk m c 0 t) (k0_pay1 (iblk m c 1 t)) := by
  rw [outsAt0_A m c t h0 h1]
  dsimp only
  exact Pieces.out_A_2 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)

theorem colmin_A (c : Dev nD) (t : Fin cfg0.N) (h0 : t.val % 16 = 0) (h1 : ¬t.val % 16 = 15) :
    (outsAt0 m c t.val t.isLt).2.2.1 = k0_pay5 (iblk m c 0 t) (k0_pay1 (iblk m c 1 t)) (k0_pay2 (F := F)) := by
  rw [outsAt0_A m c t h0 h1]
  dsimp only
  exact Pieces.sout_A_0 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)

theorem kept_A (c : Dev nD) (t : Fin cfg0.N) (h0 : t.val % 16 = 0) (h1 : ¬t.val % 16 = 15) :
    (outsAt0 m c t.val t.isLt).2.2.2 = k0_pay1 (iblk m c 1 t) := by
  rw [outsAt0_A m c t h0 h1]
  dsimp only
  exact Pieces.sout_A_1 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)

/-! ## A middle tile -/

theorem rowmin_B (c : Dev nD) (t : Fin cfg0.N) (h0 : ¬t.val % 16 = 0) (h1 : ¬t.val % 16 = 15) :
    (outsAt0 m c t.val t.isLt).1 = k0_pay4 (iblk m c 0 t) (outsAt0 m c (t.val - 1) (Nat.lt_of_le_of_lt (Nat.sub_le _ _) t.isLt)).2.2.2 := by
  rw [outsAt0_B m c t h0 h1]
  dsimp only
  exact Pieces.out_B_2 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

theorem colmin_B (c : Dev nD) (t : Fin cfg0.N) (h0 : ¬t.val % 16 = 0) (h1 : ¬t.val % 16 = 15) :
    (outsAt0 m c t.val t.isLt).2.2.1 = k0_pay5 (iblk m c 0 t) (outsAt0 m c (t.val - 1) (Nat.lt_of_le_of_lt (Nat.sub_le _ _) t.isLt)).2.2.2 (outsAt0 m c (t.val - 1) (Nat.lt_of_le_of_lt (Nat.sub_le _ _) t.isLt)).2.2.1 := by
  rw [outsAt0_B m c t h0 h1]
  dsimp only
  exact Pieces.sout_B_0 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

theorem kept_B (c : Dev nD) (t : Fin cfg0.N) (h0 : ¬t.val % 16 = 0) (h1 : ¬t.val % 16 = 15) :
    (outsAt0 m c t.val t.isLt).2.2.2 = (outsAt0 m c (t.val - 1) (Nat.lt_of_le_of_lt (Nat.sub_le _ _) t.isLt)).2.2.2 := by
  rw [outsAt0_B m c t h0 h1]
  rfl

/-! ## A core's last tile (grid points 15 and 31) -/

theorem rowmin_C (c : Dev nD) (t : Fin cfg0.N) (h0 : ¬t.val % 16 = 0) (h1 : t.val % 16 = 15) :
    (outsAt0 m c t.val t.isLt).1 = k0_pay4 (iblk m c 0 t) (outsAt0 m c (t.val - 1) (Nat.lt_of_le_of_lt (Nat.sub_le _ _) t.isLt)).2.2.2 := by
  rw [outsAt0_C m c t h0 h1]
  dsimp only
  exact Pieces.out_C_2 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

theorem colmin_C (c : Dev nD) (t : Fin cfg0.N) (h0 : ¬t.val % 16 = 0) (h1 : t.val % 16 = 15) :
    (outsAt0 m c t.val t.isLt).2.2.1 = k0_pay5 (iblk m c 0 t) (outsAt0 m c (t.val - 1) (Nat.lt_of_le_of_lt (Nat.sub_le _ _) t.isLt)).2.2.2 (outsAt0 m c (t.val - 1) (Nat.lt_of_le_of_lt (Nat.sub_le _ _) t.isLt)).2.2.1 := by
  rw [outsAt0_C m c t h0 h1]
  dsimp only
  exact Pieces.sout_C_0 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

theorem kept_C (c : Dev nD) (t : Fin cfg0.N) (h0 : ¬t.val % 16 = 0) (h1 : t.val % 16 = 15) :
    (outsAt0 m c t.val t.isLt).2.2.2 = (outsAt0 m c (t.val - 1) (Nat.lt_of_le_of_lt (Nat.sub_le _ _) t.isLt)).2.2.2 := by
  rw [outsAt0_C m c t h0 h1]
  rfl

theorem copied_C (c : Dev nD) (t : Fin cfg0.N) (h0 : ¬t.val % 16 = 0) (h1 : t.val % 16 = 15) :
    (outsAt0 m c t.val t.isLt).2.1 = k0_pay6 (k0_pay5 (iblk m c 0 t) (outsAt0 m c (t.val - 1) (Nat.lt_of_le_of_lt (Nat.sub_le _ _) t.isLt)).2.2.2 (outsAt0 m c (t.val - 1) (Nat.lt_of_le_of_lt (Nat.sub_le _ _) t.isLt)).2.2.1) := by
  rw [outsAt0_C m c t h0 h1]
  dsimp only
  exact Pieces.out_C_3 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

end Cert.KernelIdeal.Carried
end
-- ==== Proof.Dist.lean ====
/- The squared distance between two points of ℝ³, in the two forms the two programs compute it.

   The reference expands the square: |x|² + |y|² − 2 ⟨x, y⟩. The kernel folds the same three terms into ONE
   inner product of length five, ⟨[-2x; |x|²; 1], [y; 1; |y|²]⟩. On real coordinates the two agree (a ring
   identity); on the extended reals they need not (an infinite coordinate meets its own negative), which is
   why the law is stated for finite coordinates. -/
import proofs.«155492_j3762391351367_2_alg».proof.Proof.MinLaws
import Idealize.ShloMosaic.Lib.ValueIdx

noncomputable section

namespace Chamfer

open Idealize.ShloMosaic Idealize.ShloMosaic.ValueIdx

/-- The shape of both inputs: 8 clouds of 4096 points of ℝ³. -/
abbrev SX : Shape := ⟨3, ![8, 4096, 3]⟩

/-- The squared norm as both programs sum it. -/
def sqNorm (x : Fin 3 → EReal) : EReal := ∑ d : Fin 3, x d * x d

/-- The first operand's augmented column: [-2x; |x|²; 1]. -/
def augL (x : Fin 3 → EReal) (k : Fin 5) : EReal :=
  match k with
  | ⟨0, _⟩ => Ideal.ofBits .f32 0xC0000000#32 * x 0
  | ⟨1, _⟩ => Ideal.ofBits .f32 0xC0000000#32 * x 1
  | ⟨2, _⟩ => Ideal.ofBits .f32 0xC0000000#32 * x 2
  | ⟨3, _⟩ => sqNorm x
  | ⟨4, _⟩ => Ideal.ofBits .f32 0x3F800000#32

/-- The second operand's augmented column: [y; 1; |y|²]. -/
def augR (y : Fin 3 → EReal) (k : Fin 5) : EReal :=
  match k with
  | ⟨0, _⟩ => y 0
  | ⟨1, _⟩ => y 1
  | ⟨2, _⟩ => y 2
  | ⟨3, _⟩ => Ideal.ofBits .f32 0x3F800000#32
  | ⟨4, _⟩ => sqNorm y

/-- The kernel's form: one inner product of the augmented columns. -/
def augDist (x y : Fin 3 → EReal) : EReal := ∑ k : Fin 5, augL x k * augR y k

/-- The reference's form: the expanded square, each sum started from the word `0.0`. -/
def expDist (x y : Fin 3 → EReal) : EReal :=
  ((Ideal.ofBits .f32 0x00000000#32 + sqNorm x) + (Ideal.ofBits .f32 0x00000000#32 + sqNorm y))
    - Ideal.ofBits .f32 0x40000000#32 * ∑ d : Fin 3, x d * y d

/-- Point `n` of cloud `b`, as its three coordinates. -/
def point (X : SX.Idx → EReal) (b : Fin 8) (n : Fin 4096) : Fin 3 → EReal := fun d => X (ix3 b n d)

/-- Coordinate `d` of point `n` of cloud `b` is the array's entry at (b, n, d). -/
theorem point_apply (X : SX.Idx → EReal) (b : Fin 8) (n : Fin 4096) (d : Fin 3) : point X b n d = X (ix3 b n d) := by
  unfold point
  rfl

/-- On real coordinates the augmented inner product is the expanded square. -/
theorem augDist_eq_expDist (x y : Fin 3 → EReal) (hx : ∀ d, ∃ r : ℝ, x d = (r : EReal))
    (hy : ∀ d, ∃ r : ℝ, y d = (r : EReal)) : augDist x y = expDist x y := by
  choose a ha using hx
  choose c hc using hy
  unfold augDist expDist sqNorm
  rw [Fin.sum_univ_five]
  simp only [augL, augR, sqNorm, Fin.sum_univ_three, ha, hc, ofBits_one, ofBits_two, ofBits_neg_two,
    Ideal.ofBits_zero_f32]
  simp only [zero_add, ← EReal.coe_mul, ← EReal.coe_add, ← EReal.coe_sub]
  exact congrArg _ (by ring)

end Chamfer

end
-- ==== Proof.Blocks.lean ====
/- Where the pipeline's blocks sit, and what the input blocks hold.

   The grid has 32 points, walked in order; point `t` works on tile `t` of the first cloud's points (128 consecutive
   points), on the whole second cloud, writes tile `t` of the row minima, and belongs to core `t / 16`, whose
   column minima it helps to build. Before the region both clouds are transposed (coordinates before points),
   so a block of the first operand read at (b, d, r) is coordinate `d` of point `128 t + r` of cloud `b`. -/
import proofs.«155492_j3762391351367_2_alg».proof.Proof.Gen.KernelIdeal.Frame
import proofs.«155492_j3762391351367_2_alg».proof.Proof.Dist
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx Chamfer

variable (m : (ℓ : Loc nD τ sig) → Buf (Elt Ideal) ℓ)

/-- The grid has 32 points: point `t` is tile `t` of the rows (core `t / 16`, step `t % 16`). -/
def tileOf (t : Fin cfg0.N) : Fin 32 := ⟨t.val, lt_of_lt_of_eq t.isLt N_0⟩

/-- Where each window's block sits at point `t`: the first operand's tile `t` along its last axis, the whole second
    operand, tile `t` of the row minima, and the half `t / 16` of the column minima. -/
theorem idx_facts : ∀ t : Fin cfg0.N,
    (win0_0.index t 0 = 0 ∧ win0_0.index t 1 = 0 ∧ win0_0.index t 2 = t.val)
    ∧ (win0_1.index t 0 = 0 ∧ win0_1.index t 1 = 0 ∧ win0_1.index t 2 = 0)
    ∧ (win0_2.index t 0 = 0 ∧ win0_2.index t 1 = t.val)
    ∧ (win0_3.index t 0 = t.val / 16 ∧ win0_3.index t 1 = 0 ∧ win0_3.index t 2 = 0) :=
  (by decide +kernel : ∀ t : Fin grid0.N, _)

/-- The region finds each operand transposed: coordinates first, points last. -/
theorem V_v0 (c : Dev nD) : (V m c main_v0 : S8x3x4096.Idx → EReal)
    = transpose S8x3x4096 [0, 2, 1] (m ((c : Thread nD τ).loc main_arg0)) transposes_S8x4096x3_S8x3x4096_0_2_1 := by
  show StableHlo.after hostOps0 (fun b => m (c, b)) (Proc.devRef .tc main_v0) = _
  after_results

theorem V_v1 (c : Dev nD) : (V m c main_v1 : S8x3x4096.Idx → EReal)
    = transpose S8x3x4096 [0, 2, 1] (m ((c : Thread nD τ).loc main_arg1)) transposes_S8x4096x3_S8x3x4096_0_2_1 := by
  show StableHlo.after hostOps0 (fun b => m (c, b)) (Proc.devRef .tc main_v1) = _
  after_results

/-- The first operand's block at point `t`, at (b, d, r): coordinate `d` of point `128 t + r` of cloud `b`. -/
theorem iblk0_apply (c : Dev nD) (t : Fin cfg0.N) (b : Fin 8) (d : Fin 3) (r : Fin 128) :
    (iblk m c 0 t : Vec Ideal S8x3x128 .f32) (ix3 b d r)
      = point (m ((c : Thread nD τ).loc main_arg0)) b (tileRow (tileOf t) r) d := by
  obtain ⟨⟨h0, h1, h2⟩, -, -, -⟩ := idx_facts t
  unfold iblk
  rw [View.read_apply]
  show V m c main_v0 _ = _
  rw [V_v0]
  unfold point
  refine transpose_apply _ _ _ _ _ fun a => ?_
  match a with
  | ⟨0, _⟩ => show b.val = win0_0.index t 0 * 8 + 1 * b.val; rw [h0]; omega
  | ⟨1, _⟩ => show d.val = win0_0.index t 1 * 3 + 1 * d.val; rw [h1]; omega
  | ⟨2, _⟩ => show 128 * t.val + r.val = win0_0.index t 2 * 128 + 1 * r.val; rw [h2]; omega

/-- The second operand's block (the whole array, at every point), at (b, d, j): coordinate `d` of point `j`. -/
theorem iblk1_apply (c : Dev nD) (t : Fin cfg0.N) (b : Fin 8) (d : Fin 3) (j : Fin 4096) :
    (iblk m c 1 t : Vec Ideal S8x3x4096 .f32) (ix3 b d j) = point (m ((c : Thread nD τ).loc main_arg1)) b j d := by
  obtain ⟨-, ⟨h0, h1, h2⟩, -, -⟩ := idx_facts t
  unfold iblk
  rw [View.read_apply]
  show V m c main_v1 _ = _
  rw [V_v1]
  unfold point
  refine transpose_apply _ _ _ _ _ fun a => ?_
  match a with
  | ⟨0, _⟩ => show b.val = win0_1.index t 0 * 8 + 1 * b.val; rw [h0]; omega
  | ⟨1, _⟩ => show d.val = win0_1.index t 1 * 3 + 1 * d.val; rw [h1]; omega
  | ⟨2, _⟩ => show j.val = win0_1.index t 2 * 4096 + 1 * j.val; rw [h2]; omega

end Cert.KernelIdeal.Blocks
end
-- ==== Proof.Payloads.lean ====
/- The kernel body's arithmetic read entry by entry, at the exact values.

   The body keeps two buffers between grid points: the augmented second operand [y; 1; |y|²] (five rows per cloud)
   and the running column minimum. At every point it forms the augmented tile [-2x; |x|²; 1] of the first operand,
   multiplies the two (an inner product of length five per entry), and takes minima of the product along its rows
   and along its columns. Here each stored value is read at an index: a stack of blocks at the block its row falls in,
   a lane sum as a finite sum, the product as the inner product over the five augmented rows, a minimum from +∞
   along an axis as an infimum. -/
import proofs.«155492_j3762391351367_2_alg».proof.Proof.Gen.KernelIdeal.Skeleton
import proofs.«155492_j3762391351367_2_alg».proof.Proof.Dist
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payloads

open Cert.KernelIdeal Cert.KernelIdeal.Gen Idealize.ShloMosaic Idealize.ShloMosaic.ValueIdx Chamfer

/-! ## Layout pieces, for any row length -/

/-- Three blocks stacked along the middle axis — three rows, one row, one row — read at row `k`. -/
theorem stack311_apply {n : ℕ} (A : (⟨3, ![8, 3, n]⟩ : Shape).Idx → EReal) (B C : (⟨3, ![8, 1, n]⟩ : Shape).Idx → EReal)
    (h : Shape.Concatenates [(⟨3, ![8, 3, n]⟩ : Shape), ⟨3, ![8, 1, n]⟩, ⟨3, ![8, 1, n]⟩] ⟨3, ![8, 5, n]⟩ 1)
    (b : Fin 8) (k : Fin 5) (j : Fin n) :
    concatenate (⟨3, ![8, 5, n]⟩ : Shape) 1 [⟨⟨3, ![8, 3, n]⟩, A⟩, ⟨⟨3, ![8, 1, n]⟩, B⟩, ⟨⟨3, ![8, 1, n]⟩, C⟩] h (ix3 b k j)
      = match k with
        | ⟨0, _⟩ => A (ix3 b 0 j)
        | ⟨1, _⟩ => A (ix3 b 1 j)
        | ⟨2, _⟩ => A (ix3 b 2 j)
        | ⟨3, _⟩ => B (ix3 b 0 j)
        | ⟨4, _⟩ => C (ix3 b 0 j) := by
  match k with
  | ⟨0, _⟩ => exact concatenate_apply_piece 1 [⟨⟨3, ![8, 3, n]⟩, A⟩, ⟨⟨3, ![8, 1, n]⟩, B⟩, ⟨⟨3, ![8, 1, n]⟩, C⟩] h _ 0 (by show _ < 3; omega) _ A rfl rfl 0 rfl (ix3 b 0 j) (fun c hc => by
      match c with
      | ⟨0, _⟩ => rfl
      | ⟨1, _⟩ => exact absurd (Fin.ext rfl) hc
      | ⟨2, _⟩ => rfl) rfl
  | ⟨1, _⟩ => exact concatenate_apply_piece 1 [⟨⟨3, ![8, 3, n]⟩, A⟩, ⟨⟨3, ![8, 1, n]⟩, B⟩, ⟨⟨3, ![8, 1, n]⟩, C⟩] h _ 0 (by show _ < 3; omega) _ A rfl rfl 0 rfl (ix3 b 1 j) (fun c hc => by
      match c with
      | ⟨0, _⟩ => rfl
      | ⟨1, _⟩ => exact absurd (Fin.ext rfl) hc
      | ⟨2, _⟩ => rfl) rfl
  | ⟨2, _⟩ => exact concatenate_apply_piece 1 [⟨⟨3, ![8, 3, n]⟩, A⟩, ⟨⟨3, ![8, 1, n]⟩, B⟩, ⟨⟨3, ![8, 1, n]⟩, C⟩] h _ 0 (by show _ < 3; omega) _ A rfl rfl 0 rfl (ix3 b 2 j) (fun c hc => by
      match c with
      | ⟨0, _⟩ => rfl
      | ⟨1, _⟩ => exact absurd (Fin.ext rfl) hc
      | ⟨2, _⟩ => rfl) rfl
  | ⟨3, _⟩ => exact concatenate_apply_piece 1 [⟨⟨3, ![8, 3, n]⟩, A⟩, ⟨⟨3, ![8, 1, n]⟩, B⟩, ⟨⟨3, ![8, 1, n]⟩, C⟩] h _ 1 (by show _ < 3; omega) _ B rfl rfl 3 rfl (ix3 b 0 j) (fun c hc => by
      match c with
      | ⟨0, _⟩ => rfl
      | ⟨1, _⟩ => exact absurd (Fin.ext rfl) hc
      | ⟨2, _⟩ => rfl) rfl
  | ⟨4, _⟩ => exact concatenate_apply_piece 1 [⟨⟨3, ![8, 3, n]⟩, A⟩, ⟨⟨3, ![8, 1, n]⟩, B⟩, ⟨⟨3, ![8, 1, n]⟩, C⟩] h _ 2 (by show _ < 3; omega) _ C rfl rfl 4 rfl (ix3 b 0 j) (fun c hc => by
      match c with
      | ⟨0, _⟩ => rfl
      | ⟨1, _⟩ => exact absurd (Fin.ext rfl) hc
      | ⟨2, _⟩ => rfl) rfl

/-- A matrix [8, n] cast to [8, 1, n] (a kept unit axis) reads, at (b, u, j), the matrix at (b, j). -/
theorem keepUnit_apply {n : ℕ} (v : (⟨2, ![8, n]⟩ : Shape).Idx → EReal)
    (h : (⟨2, ![8, n]⟩ : Shape).ShapeCasts ⟨3, ![8, 1, n]⟩) (b : Fin 8) (u : Fin 1) (j : Fin n) :
    shapeCast (⟨3, ![8, 1, n]⟩ : Shape) v h (ix3 b u j) = v (ix2 b j) :=
  shapeCast_apply v h _ _ (by
    have hu : u.val = 0 := by omega
    rw [Shape.rowMajor_val_three, Shape.rowMajor_val_two]
    show b.val * n + j.val = (b.val * 1 + u.val) * n + j.val
    rw [hu, Nat.mul_one, Nat.add_zero])

/-- The sum of squares along the middle axis of [8, 3, n], read at (b, j): the squared norm of the column. -/
theorem sumSq_apply {n : ℕ} (v : FVec Ideal ⟨3, ![8, 3, n]⟩ .f32) (h : (⟨3, ![8, 3, n]⟩ : Shape).Reduces [1] ⟨2, ![8, n]⟩)
    (hφ : FKind.Formats .f32) (hacc : (0x00000000#32 : BitVec 32) = FKind.add.neutral .f32 hφ) (b : Fin 8) (j : Fin n) :
    multiReduction .add [1] (⟨2, ![8, n]⟩ : Shape) (mulf v v) 0x00000000#32 h hφ hacc (ix2 b j)
      = sqNorm (fun d => v (ix3 b d j)) := by
  refine (Ideal.multiReduction_add_single (mulf v v) 0x00000000#32 h hφ hacc (ix2 b j)).trans ?_
  unfold sqNorm
  refine Finset.sum_congr rfl fun k _ => ?_
  have e : h.lift (ix2 b j) k = ix3 b ⟨k.val, k.isLt⟩ j := by
    funext c; apply Fin.ext; fin_cases c <;> rfl
  rw [e]; rfl

/-- A minimum from +∞ along one axis of an array, read at an index, is the infimum along that axis. -/
theorem minAxis_apply {s t : Shape} {a : Fin s.rank} (D : FVec Ideal s .f32) (h : s.Reduces [a] t)
    (hφ : FKind.Formats .f32) (hacc : (0x7F800000#32 : BitVec 32) = FKind.minimumf.neutral .f32 hφ) (i : t.Idx) :
    multiReduction .minimumf [a] t D 0x7F800000#32 h hφ hacc i = ⨅ k : Fin (s.size a), D (h.lift i k) := by
  refine (multiReduction_minimumf_eq_fold D 0x7F800000#32 h hφ hacc i).trans ?_
  refine (h.fold_filter_drop_single FloatOps.minimumf _ D i).trans ?_
  show Finset.fold min (Ideal.ofBits .f32 0x7F800000#32) (D ∘ h.lift i) Finset.univ = _
  rw [ofBits_inf, fold_min_top]
  rfl

/-! ## The body's stored values, entry by entry -/

/-- The kept augmented second operand: rows 0–2 the coordinates, row 3 the word `1.0`, row 4 the squared norm. -/
theorem pay1_apply (v : Vec Ideal S8x3x4096 .f32) (b : Fin 8) (k : Fin 5) (j : Fin 4096) :
    k0_pay1 v (ix3 b k j) = augR (fun d => v (ix3 b d j)) k := by
  unfold k0_pay1
  simp only [shapeCast_self]
  refine (stack311_apply _ _ _ _ b k j).trans ?_
  match k with
  | ⟨0, _⟩ => rfl
  | ⟨1, _⟩ => rfl
  | ⟨2, _⟩ => rfl
  | ⟨3, _⟩ => rfl
  | ⟨4, _⟩ => exact (keepUnit_apply _ _ b 0 j).trans (sumSq_apply v _ _ _ b j)

/-- The block of +∞ the running column minimum starts from. -/
theorem pay2_apply (b : Fin 8) (j : Fin 4096) : k0_pay2 (F := Ideal) (ix2 b j) = ⊤ := by
  unfold k0_pay2
  simp only [shapeCast_self]
  exact ofBits_inf

/-- The tile's augmented first operand: rows 0–2 the coordinates times `-2.0`, row 3 the squared norm, row 4 the word `1.0`. -/
theorem xaug_apply (x0 : Vec Ideal S8x3x128 .f32) (b : Fin 8) (k : Fin 5) (r : Fin 128) :
    concatenate S8x5x128 1
        [⟨S8x3x128, mulf (F := Ideal) (broadcast S8x3x128 (FloatOps.ofBits (F := Ideal) .f32 0xC0000000#32)) x0⟩,
          ⟨S8x1x128, shapeCast S8x1x128
            (multiReduction (F := Ideal) .add [1] S8x128 (mulf (F := Ideal) x0 x0) 0x00000000#32 reduces_S8x3x128_S8x128 (.inl rfl) rfl)
            shapeCasts_S8x128_S8x1x128⟩,
          ⟨S8x1x128, broadcast S8x1x128 (FloatOps.ofBits (F := Ideal) .f32 0x3F800000#32)⟩]
        concatenates_S8x3x128_S8x1x128_S8x1x128_S8x5x128_d1 (ix3 b k r)
      = augL (fun d => x0 (ix3 b d r)) k := by
  refine (stack311_apply _ _ _ _ b k r).trans ?_
  match k with
  | ⟨0, _⟩ => rfl
  | ⟨1, _⟩ => rfl
  | ⟨2, _⟩ => rfl
  | ⟨3, _⟩ => exact (keepUnit_apply _ _ b 0 r).trans (sumSq_apply x0 _ _ _ b r)
  | ⟨4, _⟩ => rfl

theorem lhs_0 (i : S8x128x4096.Idx) (q : dot_S8x5x128_S8x5x4096_S8x128x4096_1_1_2_2_0_0.contr.Idx) : (dot_S8x5x128_S8x5x4096_S8x128x4096_1_1_2_2_0_0.lhsIdx i q 0).val = (i 0).val := by
  unfold DotDims.lhsIdx
  rw [dif_pos (show (0 : Fin S8x5x128.rank) ∈ dot_S8x5x128_S8x5x4096_S8x128x4096_1_1_2_2_0_0.lhsBatch by decide)]
  rfl
theorem lhs_1 (i : S8x128x4096.Idx) (q : dot_S8x5x128_S8x5x4096_S8x128x4096_1_1_2_2_0_0.contr.Idx) : (dot_S8x5x128_S8x5x4096_S8x128x4096_1_1_2_2_0_0.lhsIdx i q 1).val = (q ⟨0, by decide⟩).val :=
  dot_S8x5x128_S8x5x4096_S8x128x4096_1_1_2_2_0_0.lhsIdx_val_of_single rfl i q
theorem lhs_2 (i : S8x128x4096.Idx) (q : dot_S8x5x128_S8x5x4096_S8x128x4096_1_1_2_2_0_0.contr.Idx) : (dot_S8x5x128_S8x5x4096_S8x128x4096_1_1_2_2_0_0.lhsIdx i q 2).val = (i 1).val := by
  unfold DotDims.lhsIdx
  rw [dif_neg (show ¬(2 : Fin S8x5x128.rank) ∈ dot_S8x5x128_S8x5x4096_S8x128x4096_1_1_2_2_0_0.lhsBatch by decide), dif_pos (show (2 : Fin S8x5x128.rank) ∈ dot_S8x5x128_S8x5x4096_S8x128x4096_1_1_2_2_0_0.lhsNonContracting by decide)]
  rfl
theorem rhs_0 (i : S8x128x4096.Idx) (q : dot_S8x5x128_S8x5x4096_S8x128x4096_1_1_2_2_0_0.contr.Idx) : (dot_S8x5x128_S8x5x4096_S8x128x4096_1_1_2_2_0_0.rhsIdx i q 0).val = (i 0).val := by
  unfold DotDims.rhsIdx
  rw [dif_pos (show (0 : Fin S8x5x4096.rank) ∈ dot_S8x5x128_S8x5x4096_S8x128x4096_1_1_2_2_0_0.rhsBatch by decide)]
  rfl
theorem rhs_1 (i : S8x128x4096.Idx) (q : dot_S8x5x128_S8x5x4096_S8x128x4096_1_1_2_2_0_0.contr.Idx) : (dot_S8x5x128_S8x5x4096_S8x128x4096_1_1_2_2_0_0.rhsIdx i q 1).val = (q ⟨0, by decide⟩).val :=
  dot_S8x5x128_S8x5x4096_S8x128x4096_1_1_2_2_0_0.rhsIdx_val_of_single rfl i q
theorem rhs_2 (i : S8x128x4096.Idx) (q : dot_S8x5x128_S8x5x4096_S8x128x4096_1_1_2_2_0_0.contr.Idx) : (dot_S8x5x128_S8x5x4096_S8x128x4096_1_1_2_2_0_0.rhsIdx i q 2).val = (i 2).val := by
  unfold DotDims.rhsIdx
  rw [dif_neg (show ¬(2 : Fin S8x5x4096.rank) ∈ dot_S8x5x128_S8x5x4096_S8x128x4096_1_1_2_2_0_0.rhsBatch by decide), dif_pos (show (2 : Fin S8x5x4096.rank) ∈ dot_S8x5x128_S8x5x4096_S8x128x4096_1_1_2_2_0_0.rhsNonContracting by decide)]
  rfl

/-- The product of the augmented tile with the kept augmented operand, at (b, r, j): the inner product of length five
    of column `r` of the one with column `j` of the other. -/
theorem pay3_apply (x0 : Vec Ideal S8x3x128 .f32) (ya : Vec Ideal S8x5x4096 .f32) (b : Fin 8) (r : Fin 128) (j : Fin 4096) :
    k0_pay3 x0 ya (ix3 b r j) = ∑ k : Fin 5, augL (fun d => x0 (ix3 b d r)) k * ya (ix3 b k j) := by
  unfold k0_pay3
  dsimp only
  refine (Ideal.matmul_constant_zero_apply dot_S8x5x128_S8x5x4096_S8x128x4096_1_1_2_2_0_0 none _ ya (ix3 b r j)).trans ?_
  rw [← Equiv.sum_comp (contrEquiv1 dot_S8x5x128_S8x5x4096_S8x128x4096_1_1_2_2_0_0 5 rfl rfl).symm]
  refine Finset.sum_congr rfl fun k _ => ?_
  have hk := contrEquiv1_symm_val dot_S8x5x128_S8x5x4096_S8x128x4096_1_1_2_2_0_0 5 rfl rfl k
  have el : dot_S8x5x128_S8x5x4096_S8x128x4096_1_1_2_2_0_0.lhsIdx (ix3 b r j) ((contrEquiv1 dot_S8x5x128_S8x5x4096_S8x128x4096_1_1_2_2_0_0 5 rfl rfl).symm k) = ix3 b k r := funext fun a => Fin.ext (by
    match a with
    | ⟨0, _⟩ => exact lhs_0 _ _
    | ⟨1, _⟩ => exact (lhs_1 _ _).trans hk
    | ⟨2, _⟩ => exact lhs_2 _ _)
  have er : dot_S8x5x128_S8x5x4096_S8x128x4096_1_1_2_2_0_0.rhsIdx (ix3 b r j) ((contrEquiv1 dot_S8x5x128_S8x5x4096_S8x128x4096_1_1_2_2_0_0 5 rfl rfl).symm k) = ix3 b k j := funext fun a => Fin.ext (by
    match a with
    | ⟨0, _⟩ => exact rhs_0 _ _
    | ⟨1, _⟩ => exact (rhs_1 _ _).trans hk
    | ⟨2, _⟩ => exact rhs_2 _ _)
  rw [el, er]
  exact congrArg (· * ya (ix3 b k j))
    ((xaug_apply (shapeCast S8x3x128 x0 shapeCasts_S8x3x128_S8x3x128) b k r).trans (by rw [shapeCast_self]))

/-- The row minima of the product. -/
theorem pay4_apply (x0 : Vec Ideal S8x3x128 .f32) (ya : Vec Ideal S8x5x4096 .f32) (b : Fin 8) (r : Fin 128) :
    k0_pay4 x0 ya (ix2 b r) = ⨅ j : Fin 4096, k0_pay3 x0 ya (ix3 b r j) := by
  unfold k0_pay4
  refine (minAxis_apply (k0_pay3 x0 ya) reduces_S8x128x4096_S8x128 _ _ (ix2 b r)).trans ?_
  refine iInf_congr fun j => congrArg (k0_pay3 x0 ya) ?_
  funext c; apply Fin.ext; fin_cases c <;> rfl

/-- The running column minimum, lowered by the tile's column minima. -/
theorem pay5_apply (x0 : Vec Ideal S8x3x128 .f32) (ya : Vec Ideal S8x5x4096 .f32) (acc : Vec Ideal S8x4096 .f32)
    (b : Fin 8) (j : Fin 4096) :
    k0_pay5 x0 ya acc (ix2 b j) = min (acc (ix2 b j)) (⨅ r : Fin 128, k0_pay3 x0 ya (ix3 b r j)) := by
  unfold k0_pay5
  simp only [shapeCast_self]
  refine congrArg (min (acc (ix2 b j))) ?_
  refine (minAxis_apply (k0_pay3 x0 ya) reduces_S8x128x4096_S8x4096 _ _ (ix2 b j)).trans ?_
  refine iInf_congr fun r => congrArg (k0_pay3 x0 ya) ?_
  funext c; apply Fin.ext; fin_cases c <;> rfl

/-- The copy out: the running column minimum under a leading unit axis. -/
theorem pay6_apply (v : Vec Ideal S8x4096 .f32) (u : Fin 1) (b : Fin 8) (j : Fin 4096) :
    k0_pay6 v (ix3 u b j) = v (ix2 b j) := by
  unfold k0_pay6
  exact shapeCast_ab_1ab_apply v _ u b j

end Cert.KernelIdeal.Payloads
end
-- ==== Proof.Tile.lean ====
/- One tile's work in terms of distances between points.

   Given that the tile's block holds the coordinates of its 128 points and the kept buffer holds the augmented second
   cloud, every entry of the product is the (augmented-form) squared distance between a point of the tile and a point of
   the second cloud; so the stored row minima are, for each of the tile's points, the least distance to the second
   cloud, and the running column minimum, for each point of the second cloud, extends by the tile's points the
   infimum it already held over the earlier points. -/
import proofs.«155492_j3762391351367_2_alg».proof.Proof.Payloads

noncomputable section

namespace Cert.KernelIdeal.Tile

open Cert.KernelIdeal Cert.KernelIdeal.Gen Idealize.ShloMosaic Idealize.ShloMosaic.ValueIdx Chamfer
open Cert.KernelIdeal.Payloads

variable (X Y : SX.Idx → EReal)

/-- The kernel's squared distance between point `p` of the first cloud `b` and point `j` of the second. -/
def kdist (b : Fin 8) (p j : Fin 4096) : EReal := augDist (point X b p) (point Y b j)

/-- A first point's kept operand: the augmented second cloud. -/
theorem kept_first (v : Vec Ideal S8x3x4096 .f32) (hv : ∀ b d j, v (ix3 b d j) = point Y b j d)
    (b : Fin 8) (k : Fin 5) (j : Fin 4096) : k0_pay1 v (ix3 b k j) = augR (point Y b j) k :=
  (pay1_apply v b k j).trans (congrArg (augR · k) (funext fun d => hv b d j))

/-- The product at tile `T`: entry (b, r, j) is the distance from the tile's point `r` to point `j`. -/
theorem dist_tile (T : Fin 32) (x0 : Vec Ideal S8x3x128 .f32) (ya : Vec Ideal S8x5x4096 .f32)
    (hx : ∀ b d r, x0 (ix3 b d r) = point X b (tileRow T r) d)
    (hy : ∀ b k j, ya (ix3 b k j) = augR (point Y b j) k) (b : Fin 8) (r : Fin 128) (j : Fin 4096) :
    k0_pay3 x0 ya (ix3 b r j) = kdist X Y b (tileRow T r) j := by
  refine (pay3_apply x0 ya b r j).trans ?_
  unfold kdist augDist
  refine Finset.sum_congr rfl fun k _ => ?_
  rw [hy b k j, show (fun d => x0 (ix3 b d r)) = point X b (tileRow T r) from funext fun d => hx b d r]

/-- The stored row minima at tile `T`: for each of the tile's points, the least distance to the second cloud. -/
theorem rowmin_tile (T : Fin 32) (x0 : Vec Ideal S8x3x128 .f32) (ya : Vec Ideal S8x5x4096 .f32)
    (hx : ∀ b d r, x0 (ix3 b d r) = point X b (tileRow T r) d)
    (hy : ∀ b k j, ya (ix3 b k j) = augR (point Y b j) k) (b : Fin 8) (r : Fin 128) :
    k0_pay4 x0 ya (ix2 b r) = ⨅ j : Fin 4096, kdist X Y b (tileRow T r) j :=
  (pay4_apply x0 ya b r).trans (iInf_congr fun j => dist_tile X Y T x0 ya hx hy b r j)

/-- The running column minimum after tile `T`, from its value over the rows `lo ≤ p < 128 T`. -/
theorem colmin_tile (T : Fin 32) (x0 : Vec Ideal S8x3x128 .f32) (ya : Vec Ideal S8x5x4096 .f32)
    (acc : Vec Ideal S8x4096 .f32)
    (hx : ∀ b d r, x0 (ix3 b d r) = point X b (tileRow T r) d)
    (hy : ∀ b k j, ya (ix3 b k j) = augR (point Y b j) k)
    (lo : ℕ) (hlo : lo ≤ 128 * T.val)
    (hacc : ∀ b j, acc (ix2 b j) = minRows lo (128 * T.val) (fun p => kdist X Y b p j))
    (b : Fin 8) (j : Fin 4096) :
    k0_pay5 x0 ya acc (ix2 b j) = minRows lo (128 * (T.val + 1)) (fun p => kdist X Y b p j) := by
  refine (pay5_apply x0 ya acc b j).trans ?_
  rw [hacc b j, ← minRows_step lo T hlo]
  exact congrArg (min _) (iInf_congr fun r => dist_tile X Y T x0 ya hx hy b r j)

/-- At a core's first tile the running minimum starts from +∞: it is the tile's own column minimum. -/
theorem colmin_first (T : Fin 32) (x0 : Vec Ideal S8x3x128 .f32) (ya : Vec Ideal S8x5x4096 .f32)
    (hx : ∀ b d r, x0 (ix3 b d r) = point X b (tileRow T r) d)
    (hy : ∀ b k j, ya (ix3 b k j) = augR (point Y b j) k) (b : Fin 8) (j : Fin 4096) :
    k0_pay5 x0 ya (k0_pay2 (F := Ideal)) (ix2 b j)
      = minRows (128 * T.val) (128 * (T.val + 1)) (fun p => kdist X Y b p j) :=
  colmin_tile X Y T x0 ya (k0_pay2 (F := Ideal)) hx hy (128 * T.val) le_rfl
    (fun b j => (pay2_apply b j).trans (minRows_empty _ _).symm) b j

end Cert.KernelIdeal.Tile
end
-- ==== Proof.Running.lean ====
/- The running state of the kernel over its 32 grid points, by induction on the point.

   After point `n` (tile `n` of the first cloud; core `n / 16`, step `n % 16`): the kept operand is the augmented
   second cloud (built at the core's first point, untouched after); the running column minimum is, for every point of
   the second cloud, the infimum of the distances from the first cloud's points `128 (n − n % 16) ≤ p < 128 (n + 1)`
   — the points the core has seen so far; the row-minima block holds tile `n`'s row minima; and at a core's last point
   the block copied out is the core's whole column minimum, over its 2048 points. -/
import proofs.«155492_j3762391351367_2_alg».proof.Proof.Carried
import proofs.«155492_j3762391351367_2_alg».proof.Proof.Blocks
import proofs.«155492_j3762391351367_2_alg».proof.Proof.Tile

set_option maxRecDepth 16384

noncomputable section

open Idealize.ShloMosaic Idealize.ShloMosaic.TcCoe Idealize.SL.Sem
open Idealize.ShloMosaic.Pipeline (Dat)

namespace Cert.KernelIdeal.Running

open Cert.KernelIdeal Cert.KernelIdeal.Gen Idealize.ShloMosaic.ValueIdx Chamfer
open Cert.KernelIdeal.Tile Cert.KernelIdeal.Blocks Cert.KernelIdeal.Carried

variable (m : (ℓ : Loc nD τ sig) → Buf (Elt Ideal) ℓ)

/-- The two clouds as the core finds them. -/
abbrev cloudX (c : Dev nD) : SX.Idx → EReal := m ((c : Thread nD τ).loc main_arg0)
abbrev cloudY (c : Dev nD) : SX.Idx → EReal := m ((c : Thread nD τ).loc main_arg1)

/-- What the buffers hold after grid point `n`: the kept operand is the augmented second cloud; the running column
    minimum is the infimum over the first cloud's points from the start of the point's core up to the end of tile
    `n`; the row-minima block holds tile `n`'s row minima; and after a core's last point the copied-out block is
    that core's column minimum. -/
structure Inv (c : Dev nD) (n : ℕ) (h : n < cfg0.N) : Prop where
  kept : ∀ (b : Fin 8) (k : Fin 5) (j : Fin 4096),
    (outsAt0 m c n h).2.2.2 (ix3 b k j) = augR (point (cloudY m c) b j) k
  col : ∀ (b : Fin 8) (j : Fin 4096), (outsAt0 m c n h).2.2.1 (ix2 b j)
    = minRows (128 * (n - n % 16)) (128 * (n + 1)) (fun p => kdist (cloudX m c) (cloudY m c) b p j)
  row : ∀ (b : Fin 8) (r : Fin 128), (outsAt0 m c n h).1 (ix2 b r)
    = ⨅ j : Fin 4096, kdist (cloudX m c) (cloudY m c) b (tileRow (tileOf ⟨n, h⟩) r) j
  out : n % 16 = 15 → ∀ (u : Fin 1) (b : Fin 8) (j : Fin 4096), (outsAt0 m c n h).2.1 (ix3 u b j)
    = minRows (128 * (n - 15)) (128 * (n + 1)) (fun p => kdist (cloudX m c) (cloudY m c) b p j)

/-- A core's first point. -/
theorem step_first (c : Dev nD) (t : Fin cfg0.N) (h0 : t.val % 16 = 0) (h1 : ¬t.val % 16 = 15) :
    Inv m c t.val t.isLt := by
  have hk : ∀ (b : Fin 8) (k : Fin 5) (j : Fin 4096),
      k0_pay1 (iblk m c 1 t) (ix3 b k j) = augR (point (cloudY m c) b j) k :=
    kept_first (cloudY m c) (iblk m c 1 t) (iblk1_apply m c t)
  have e : t.val - t.val % 16 = (tileOf t).val := by show _ = t.val; omega
  refine ⟨fun b k j => ?_, fun b j => ?_, fun b r => ?_, fun h15 => absurd h15 h1⟩
  · rw [kept_A m c t h0 h1]; exact hk b k j
  · rw [colmin_A m c t h0 h1, e]
    exact colmin_first (cloudX m c) (cloudY m c) (tileOf t) (iblk m c 0 t) (k0_pay1 (iblk m c 1 t))
      (iblk0_apply m c t) hk b j
  · rw [rowmin_A m c t h0 h1]
    exact rowmin_tile (cloudX m c) (cloudY m c) (tileOf t) (iblk m c 0 t) (k0_pay1 (iblk m c 1 t))
      (iblk0_apply m c t) hk b r

/-- A later point of a core, from what the point before left. -/
theorem step_next (c : Dev nD) (t : Fin cfg0.N) (h0 : ¬t.val % 16 = 0)
    (ih : Inv m c (t.val - 1) (Nat.lt_of_le_of_lt (Nat.sub_le _ _) t.isLt)) :
    Inv m c t.val t.isLt := by
  have hN : t.val < 32 := lt_of_lt_of_eq t.isLt N_0
  have e1 : t.val - 1 + 1 = (tileOf t).val := by show _ = t.val; omega
  have e2 : t.val - 1 - (t.val - 1) % 16 = t.val - t.val % 16 := by omega
  have hlo : 128 * (t.val - t.val % 16) ≤ 128 * (tileOf t).val := by show _ ≤ 128 * t.val; omega
  have hacc : ∀ (b : Fin 8) (j : Fin 4096), (outsAt0 m c (t.val - 1) (Nat.lt_of_le_of_lt (Nat.sub_le _ _) t.isLt)).2.2.1 (ix2 b j)
      = minRows (128 * (t.val - t.val % 16)) (128 * (tileOf t).val) (fun p => kdist (cloudX m c) (cloudY m c) b p j) := by
    intro b j
    have := ih.col b j
    rw [e1, e2] at this
    exact this
  have hcol : ∀ (b : Fin 8) (j : Fin 4096),
      k0_pay5 (iblk m c 0 t) (outsAt0 m c (t.val - 1) (Nat.lt_of_le_of_lt (Nat.sub_le _ _) t.isLt)).2.2.2 (outsAt0 m c (t.val - 1) (Nat.lt_of_le_of_lt (Nat.sub_le _ _) t.isLt)).2.2.1 (ix2 b j)
        = minRows (128 * (t.val - t.val % 16)) (128 * (t.val + 1)) (fun p => kdist (cloudX m c) (cloudY m c) b p j) :=
    colmin_tile (cloudX m c) (cloudY m c) (tileOf t) (iblk m c 0 t) (outsAt0 m c (t.val - 1) (Nat.lt_of_le_of_lt (Nat.sub_le _ _) t.isLt)).2.2.2 (outsAt0 m c (t.val - 1) (Nat.lt_of_le_of_lt (Nat.sub_le _ _) t.isLt)).2.2.1
      (iblk0_apply m c t) ih.kept _ hlo hacc
  have hrow : ∀ (b : Fin 8) (r : Fin 128), k0_pay4 (iblk m c 0 t) (outsAt0 m c (t.val - 1) (Nat.lt_of_le_of_lt (Nat.sub_le _ _) t.isLt)).2.2.2 (ix2 b r)
      = ⨅ j : Fin 4096, kdist (cloudX m c) (cloudY m c) b (tileRow (tileOf t) r) j :=
    rowmin_tile (cloudX m c) (cloudY m c) (tileOf t) (iblk m c 0 t) (outsAt0 m c (t.val - 1) (Nat.lt_of_le_of_lt (Nat.sub_le _ _) t.isLt)).2.2.2 (iblk0_apply m c t) ih.kept
  by_cases h1 : t.val % 16 = 15
  · refine ⟨fun b k j => ?_, fun b j => ?_, fun b r => ?_, fun _ u b j => ?_⟩
    · rw [kept_C m c t h0 h1]; exact ih.kept b k j
    · rw [colmin_C m c t h0 h1]; exact hcol b j
    · rw [rowmin_C m c t h0 h1]; exact hrow b r
    · rw [copied_C m c t h0 h1, Payloads.pay6_apply, hcol b j]
      have e3 : t.val - t.val % 16 = t.val - 15 := by omega
      rw [e3]
  · refine ⟨fun b k j => ?_, fun b j => ?_, fun b r => ?_, fun h15 => absurd h15 h1⟩
    · rw [kept_B m c t h0 h1]; exact ih.kept b k j
    · rw [colmin_B m c t h0 h1]; exact hcol b j
    · rw [rowmin_B m c t h0 h1]; exact hrow b r

/-- The invariant holds after every grid point. -/
theorem inv (c : Dev nD) : ∀ (n : ℕ) (h : n < cfg0.N), Inv m c n h := by
  intro n
  induction n with
  | zero => intro h; exact step_first m c ⟨0, h⟩ rfl (by show ¬(0 : ℕ) % 16 = 15; decide)
  | succ n ih =>
    intro h
    have hN : n + 1 < 32 := lt_of_lt_of_eq h N_0
    by_cases h0 : (n + 1) % 16 = 0
    · exact step_first m c ⟨n + 1, h⟩ h0 (by show ¬(n + 1) % 16 = 15; omega)
    · exact step_next m c ⟨n + 1, h⟩ h0 (ih (Nat.lt_of_succ_lt h))

end Cert.KernelIdeal.Running
end
-- ==== Proof.RefRead.lean ====
/- The reference program read at an index: its distance matrix, and the two minima it takes of it.

   Entry (b, n, j) of the distance matrix is the expanded square |x|² + |y|² − 2⟨x, y⟩ of point n of the first
   cloud b and point j of the second. The reference takes the minimum of each row from +∞, which is the
   infimum over the second cloud's points, and of each column, the infimum over the first cloud's. -/
import proofs.«155492_j3762391351367_2_alg».proof.Proof.Gen.ReferenceIdeal.Read
import proofs.«155492_j3762391351367_2_alg».proof.Proof.Dist
import Idealize.ShloMosaic.PureOps.Ideal.Laws
import Idealize.ShloMosaic.Lib.ValueIdx

noncomputable section

namespace Chamfer

open Idealize.ShloMosaic Idealize.ShloMosaic.ValueIdx
open Cert.ReferenceIdeal Cert.ReferenceIdeal.Gen Cert.ReferenceIdeal.Read

/-- Entry (b, n, j) of the reference's distance matrix is the expanded square of the two points. -/
theorem ref_dist (X Y : FVec Ideal Cert.ReferenceIdeal.S8x4096x3 .f32) (b : Fin 8) (n j : Fin 4096) :
    Cert.ReferenceIdeal.Read.val_main_v12 (F := Ideal) X Y (ix3 b n j) = expDist (point X b n) (point Y b j) := by
  rw [val_main_v12_apply, val_main_v9_apply, val_main_v11_apply, val_main_v7_apply, val_main_v5_apply,
    val_main_v1_apply, val_main_v8_apply, val_main_v6_apply, val_main_v3_apply, val_main_v10_apply,
    val_main_v4_apply, val_main_cst_apply, val_main_cst_0_apply, val_main_cst_1_apply]
  have e1 : ∀ k : Fin 3, idx_main_v1 (idx_main_v5 (idx_main_v7 (ix3 b n j))) k = ix3 b n k := fun k =>
    funext fun a => Fin.ext (by match a with | ⟨0, _⟩ => rfl | ⟨1, _⟩ => rfl | ⟨2, _⟩ => rfl)
  have e2 : ∀ k : Fin 3, idx_main_v3 (idx_main_v6 (idx_main_v8 (ix3 b n j))) k = ix3 b j k := fun k =>
    funext fun a => Fin.ext (by match a with | ⟨0, _⟩ => rfl | ⟨1, _⟩ => rfl | ⟨2, _⟩ => rfl)
  have e3 : ∀ k : Fin 3, lidx_main_v4 (ix3 b n j) k = ix3 b n k := fun k =>
    funext fun a => Fin.ext (by match a with | ⟨0, _⟩ => rfl | ⟨1, _⟩ => rfl | ⟨2, _⟩ => rfl)
  have e4 : ∀ k : Fin 3, ridx_main_v4 (ix3 b n j) k = ix3 b j k := fun k =>
    funext fun a => Fin.ext (by match a with | ⟨0, _⟩ => rfl | ⟨1, _⟩ => rfl | ⟨2, _⟩ => rfl)
  simp only [val_main_v0_apply, val_main_v2_apply, e1, e2, e3, e4, Ideal.mulf_def, Ideal.addf_def, Ideal.subf_def,
    Ideal.ofBits_def]
  unfold expDist sqNorm point
  rfl

/-- Row (b, n) of the matrix with column `k` put back is entry (b, n, k). -/
theorem ref_lift_last (h : S8x4096x4096.Reduces [2] S8x4096) (b : Fin 8) (n : Fin 4096) (k : Fin (S8x4096x4096.size 2)) :
    h.lift (ix2 b n) k = ix3 b n (⟨k.val, k.isLt⟩ : Fin 4096) := by
  funext c; apply Fin.ext
  fin_cases c <;> rfl

/-- Column (b, j) of the matrix with row `k` put back is entry (b, k, j). -/
theorem ref_lift_mid (h : S8x4096x4096.Reduces [1] S8x4096) (b : Fin 8) (j : Fin 4096) (k : Fin (S8x4096x4096.size 1)) :
    h.lift (ix2 b j) k = ix3 b (⟨k.val, k.isLt⟩ : Fin 4096) j := by
  funext c; apply Fin.ext
  fin_cases c <;> rfl

/-- The row minima start from the word of +∞. -/
theorem ref_init_last_top : val_main_cst_2 (F := Ideal) (Shape.Idx.first h_S_) = (⊤ : EReal) :=
  ((val_main_cst_2_apply _).trans (Ideal.ofBits_def _)).trans ofBits_inf

/-- Dropping the last axis of the matrix leaves the (cloud, row) pairs. -/
theorem ref_reduces_last : S8x4096x4096.Reduces [2] S8x4096 := by decide

/-- A minimum from +∞ along the last axis of a matrix is the infimum of the row. -/
theorem ref_min_last (D : FVec Ideal S8x4096x4096 .f32) (b : Fin 8) (n : Fin 4096) :
    Host.reduce FloatOps.minimumf D (val_main_cst_2 (F := Ideal)) reducesTo_S8x4096x4096_S8x4096_d2 h_S_ (ix2 b n)
      = ⨅ j : Fin 4096, D (ix3 b n j) := by
  refine (Host.reduce_eq_fold_single FloatOps.minimumf D _ reducesTo_S8x4096x4096_S8x4096_d2 ref_reduces_last h_S_ (ix2 b n)).trans ?_
  have hf : (D ∘ ref_reduces_last.lift (ix2 b n)) = fun k : Fin 4096 => D (ix3 b n k) :=
    funext fun k => congrArg D (ref_lift_last ref_reduces_last b n k)
  rw [hf, ref_init_last_top]
  exact fold_min_top (N := 4096) _

/-- The column minima start from the word of +∞. -/
theorem ref_init_mid_top : val_main_cst_3 (F := Ideal) (Shape.Idx.first h_S_) = (⊤ : EReal) :=
  ((val_main_cst_3_apply _).trans (Ideal.ofBits_def _)).trans ofBits_inf

/-- Dropping the middle axis of the matrix leaves the (cloud, column) pairs. -/
theorem ref_reduces_mid : S8x4096x4096.Reduces [1] S8x4096 := by decide

/-- A minimum from +∞ along the middle axis of a matrix is the infimum of the column. -/
theorem ref_min_mid (D : FVec Ideal S8x4096x4096 .f32) (b : Fin 8) (j : Fin 4096) :
    Host.reduce FloatOps.minimumf D (val_main_cst_3 (F := Ideal)) reducesTo_S8x4096x4096_S8x4096_d1 h_S_ (ix2 b j)
      = ⨅ n : Fin 4096, D (ix3 b n j) := by
  refine (Host.reduce_eq_fold_single FloatOps.minimumf D _ reducesTo_S8x4096x4096_S8x4096_d1 ref_reduces_mid h_S_ (ix2 b j)).trans ?_
  have hf : (D ∘ ref_reduces_mid.lift (ix2 b j)) = fun k : Fin 4096 => D (ix3 b k j) :=
    funext fun k => congrArg D (ref_lift_mid ref_reduces_mid b j k)
  rw [hf, ref_init_mid_top]
  exact fold_min_top (N := 4096) _

/-- The reference's minimum over the second cloud: the infimum of the distances from point n of the first. -/
theorem ref_minXY (X Y : FVec Ideal Cert.ReferenceIdeal.S8x4096x3 .f32) (b : Fin 8) (n : Fin 4096) :
    Cert.ReferenceIdeal.Read.val_main_v13 (F := Ideal) X Y (ix2 b n) = ⨅ j : Fin 4096, expDist (point X b n) (point Y b j) := by
  unfold val_main_v13
  rw [ref_min_last]
  exact iInf_congr fun j => ref_dist X Y b n j

/-- The reference's minimum over the first cloud: the infimum of the distances to point j of the second. -/
theorem ref_minYX (X Y : FVec Ideal Cert.ReferenceIdeal.S8x4096x3 .f32) (b : Fin 8) (j : Fin 4096) :
    Cert.ReferenceIdeal.Read.val_main_v14 (F := Ideal) X Y (ix2 b j) = ⨅ n : Fin 4096, expDist (point X b n) (point Y b j) := by
  unfold val_main_v14
  rw [ref_min_mid]
  exact iInf_congr fun n => ref_dist X Y b n j

end Chamfer

end
-- ==== Proof.Arrays.lean ====
/- From the blocks to the arrays: what the two result arrays hold after the region.

   The row minima leave the region tile by tile: point `t` writes back rows `128 t … 128 t + 127` of all eight
   clouds, so entry (b, n) is written by point `n / 128`, and the 32 tiles cover the array. The column minima
   leave it once per core: the last point of core `u`, point `16 u + 15`, writes back the whole half `u` of the
   array, and the two halves cover it. So each array ends holding whatever every point is known to hand over. -/
import proofs.«155492_j3762391351367_2_alg».proof.Proof.Blocks

set_option maxRecDepth 16384

noncomputable section

open Idealize.ShloMosaic Idealize.ShloMosaic.TcCoe Idealize.SL.Sem
open Idealize.ShloMosaic.Pipeline (Dat)

namespace Cert.KernelIdeal.Arrays

open Cert.KernelIdeal Cert.KernelIdeal.Gen Idealize.ShloMosaic.ValueIdx Chamfer

variable (m : (ℓ : Loc nD τ sig) → Buf (Elt Ideal) ℓ)

/-! ## The row minima: one tile of rows per point -/

/-- What point `t` writes back of the row minima is tile `t` of the rows of `R`. -/
theorem flushed2_eq (c : Dev nD) (R : Fin 8 → Fin 4096 → EReal)
    (hrow : ∀ (t : Fin cfg0.N) (b : Fin 8) (r : Fin 128),
        (outsAt0 m c t.val t.isLt).1 (ix2 b r) = R b (tileRow (Blocks.tileOf t) r))
    (t : Fin cfg0.N) :
    (dats m 0 c).flushed 2 t
      = ((cfg0.win 2).blk t).view.read (Elt Ideal) (fun i : S8x4096.Idx => R (i 0) (i 1)) := by
  show (cfg0.win 2).cut (grid0.coords t) ((dats m 0 c).after 2 t) = _
  rw [after0_2]
  obtain ⟨-, -, ⟨h0, h1⟩, -⟩ := Blocks.idx_facts t
  have key : ∀ y' : S8x128.Idx,
      (outsAt0 m c t.val t.isLt).1 y' = R (y' 0) (tileRow (Blocks.tileOf t) (y' 1)) := fun y' => by
    exact (congrArg (outsAt0 m c t.val t.isLt).1 (eq_ix2 y')).trans (hrow t (y' 0) (y' 1))
  funext y
  refine (key ((cfg0.win 2).xinj (grid0.coords t) y)).trans ?_
  show R _ _ = R ((((cfg0.win 2).blk t).view.emb y) 0) ((((cfg0.win 2).blk t).view.emb y) 1)
  have e0 : ((cfg0.win 2).xinj (grid0.coords t) y) 0 = (((cfg0.win 2).blk t).view.emb y) 0 := Fin.ext (by
    show (y 0).val = win0_2.index t 0 * 8 + 1 * (y 0).val
    rw [h0]; omega)
  have e1 : tileRow (Blocks.tileOf t) (((cfg0.win 2).xinj (grid0.coords t) y) 1) = (((cfg0.win 2).blk t).view.emb y) 1 :=
    Fin.ext (by
      show 128 * t.val + (y 1).val = win0_2.index t 1 * 128 + 1 * (y 1).val
      rw [h1]; omega)
  exact congrArg₂ R e0 e1

/-- An index of the row-minima array is in point `t`'s block iff each coordinate is in the block's range. -/
theorem mem_blk2 (t : Fin cfg0.N) (i : S8x4096.Idx) :
    i ∈ ((cfg0.win 2).blk t).view.set
      ↔ ∀ a : Fin 2, win0_2.index t a * S8x128.size a ≤ (i a).val
          ∧ (i a).val < win0_2.index t a * S8x128.size a + S8x128.size a := by
  show i ∈ ((View.whole main_v2_0).slice (win0_2.rect t)).set ↔ _
  rw [View.set_slice_whole, Rect.mem_set_unit]
  exact Iff.rfl

/-- The row-minima array after the region: entry (b, n) is what point `n / 128` wrote there. -/
theorem final2 (c : Dev nD) (R : Fin 8 → Fin 4096 → EReal)
    (hrow : ∀ (t : Fin cfg0.N) (b : Fin 8) (r : Fin 128),
        (outsAt0 m c t.val t.isLt).1 (ix2 b r) = R b (tileRow (Blocks.tileOf t) r)) :
    (dats m 0 c).arrAt 2 cfg0.N = fun i : S8x4096.Idx => R (i 0) (i 1) :=
  (dats m 0 c).arrAt_eq_of_cover 2 (fun i : S8x4096.Idx => R (i 0) (i 1))
    (fun t _ => flushed2_eq m c R hrow t) fun i => by
      have hi0 : (i 0).val < 8 := (i 0).isLt
      have hi1 : (i 1).val < 4096 := (i 1).isLt
      have hN : cfg0.N = 32 := N_0
      let t : Fin cfg0.N := ⟨(i 1).val / 128, by omega⟩
      obtain ⟨-, -, ⟨h0, h1⟩, -⟩ := Blocks.idx_facts t
      have ht : t.val = (i 1).val / 128 := rfl
      refine ⟨t, flush0_2 t, ?_⟩
      rw [mem_blk2]
      intro a
      match a with
      | ⟨0, _⟩ =>
        show win0_2.index t 0 * 8 ≤ (i 0).val ∧ (i 0).val < win0_2.index t 0 * 8 + 8
        rw [h0]; omega
      | ⟨1, _⟩ =>
        show win0_2.index t 1 * 128 ≤ (i 1).val ∧ (i 1).val < win0_2.index t 1 * 128 + 128
        rw [h1, ht]; omega

/-! ## The column minima: one half per core, written back at the core's last point -/

/-- What the last point of a core writes back of the column minima is that core's half of `Q`. -/
theorem flushed3_eq (c : Dev nD) (Q : Fin 2 → Fin 8 → Fin 4096 → EReal)
    (hout : ∀ (t : Fin cfg0.N) (h15 : t.val % 16 = 15) (u : Fin 1) (b : Fin 8) (j : Fin 4096),
        (outsAt0 m c t.val t.isLt).2.1 (ix3 u b j)
          = Q ⟨t.val / 16, by have := lt_of_lt_of_eq t.isLt N_0; omega⟩ b j)
    (t : Fin cfg0.N) (hf : (cfg0.win 3).flush t = true) :
    (dats m 0 c).flushed 3 t
      = ((cfg0.win 3).blk t).view.read (Elt Ideal) (fun i : S2x8x4096.Idx => Q (i 0) (i 1) (i 2)) := by
  have h15 : t.val % 16 = 15 := (flush0_3 t).mp hf
  show (cfg0.win 3).cut (grid0.coords t) ((dats m 0 c).after 3 t) = _
  rw [after0_3]
  obtain ⟨-, -, -, ⟨h0, h1, h2⟩⟩ := Blocks.idx_facts t
  have key : ∀ y' : S1x8x4096.Idx, (outsAt0 m c t.val t.isLt).2.1 y'
      = Q ⟨t.val / 16, by have := lt_of_lt_of_eq t.isLt N_0; omega⟩ (y' 1) (y' 2) := fun y' =>
    (congrArg (outsAt0 m c t.val t.isLt).2.1 (eq_ix3 y')).trans (hout t h15 (y' 0) (y' 1) (y' 2))
  funext y
  refine (key ((cfg0.win 3).xinj (grid0.coords t) y)).trans ?_
  show Q _ _ _ = Q ((((cfg0.win 3).blk t).view.emb y) 0) ((((cfg0.win 3).blk t).view.emb y) 1)
    ((((cfg0.win 3).blk t).view.emb y) 2)
  have hy0 : (y 0).val < 1 := (y 0).isLt
  have e0 : (⟨t.val / 16, by have := lt_of_lt_of_eq t.isLt N_0; omega⟩ : Fin 2) = (((cfg0.win 3).blk t).view.emb y) 0 :=
    Fin.ext (by
      show t.val / 16 = win0_3.index t 0 * 1 + 1 * (y 0).val
      rw [h0]; omega)
  have e1 : ((cfg0.win 3).xinj (grid0.coords t) y) 1 = (((cfg0.win 3).blk t).view.emb y) 1 := Fin.ext (by
    show (y 1).val = win0_3.index t 1 * 8 + 1 * (y 1).val
    rw [h1]; omega)
  have e2 : ((cfg0.win 3).xinj (grid0.coords t) y) 2 = (((cfg0.win 3).blk t).view.emb y) 2 := Fin.ext (by
    show (y 2).val = win0_3.index t 2 * 4096 + 1 * (y 2).val
    rw [h2]; omega)
  rw [e0, e1, e2]

/-- An index of the column-minima array is in point `t`'s block iff each coordinate is in the block's range. -/
theorem mem_blk3 (t : Fin cfg0.N) (i : S2x8x4096.Idx) :
    i ∈ ((cfg0.win 3).blk t).view.set
      ↔ ∀ a : Fin 3, win0_3.index t a * S1x8x4096.size a ≤ (i a).val
          ∧ (i a).val < win0_3.index t a * S1x8x4096.size a + S1x8x4096.size a := by
  show i ∈ ((View.whole main_v2_1).slice (win0_3.rect t)).set ↔ _
  rw [View.set_slice_whole, Rect.mem_set_unit]
  exact Iff.rfl

/-- The column-minima array after the region: half `u` is what point `16 u + 15` wrote back. -/
theorem final3 (c : Dev nD) (Q : Fin 2 → Fin 8 → Fin 4096 → EReal)
    (hout : ∀ (t : Fin cfg0.N) (h15 : t.val % 16 = 15) (u : Fin 1) (b : Fin 8) (j : Fin 4096),
        (outsAt0 m c t.val t.isLt).2.1 (ix3 u b j)
          = Q ⟨t.val / 16, by have := lt_of_lt_of_eq t.isLt N_0; omega⟩ b j) :
    (dats m 0 c).arrAt 3 cfg0.N = fun i : S2x8x4096.Idx => Q (i 0) (i 1) (i 2) :=
  (dats m 0 c).arrAt_eq_of_cover 3 (fun i : S2x8x4096.Idx => Q (i 0) (i 1) (i 2))
    (fun t hf => flushed3_eq m c Q hout t hf) fun i => by
      have hi0 : (i 0).val < 2 := (i 0).isLt
      have hi1 : (i 1).val < 8 := (i 1).isLt
      have hi2 : (i 2).val < 4096 := (i 2).isLt
      have hN : cfg0.N = 32 := N_0
      let t : Fin cfg0.N := ⟨16 * (i 0).val + 15, by omega⟩
      obtain ⟨-, -, -, ⟨h0, h1, h2⟩⟩ := Blocks.idx_facts t
      have ht : t.val = 16 * (i 0).val + 15 := rfl
      refine ⟨t, (flush0_3 t).mpr (by rw [ht]; omega), ?_⟩
      rw [mem_blk3]
      intro a
      match a with
      | ⟨0, _⟩ =>
        show win0_3.index t 0 * 1 ≤ (i 0).val ∧ (i 0).val < win0_3.index t 0 * 1 + 1
        rw [h0, ht]; omega
      | ⟨1, _⟩ =>
        show win0_3.index t 1 * 8 ≤ (i 1).val ∧ (i 1).val < win0_3.index t 1 * 8 + 8
        rw [h1]; omega
      | ⟨2, _⟩ =>
        show win0_3.index t 2 * 4096 ≤ (i 2).val ∧ (i 2).val < win0_3.index t 2 * 4096 + 4096
        rw [h2]; omega

end Cert.KernelIdeal.Arrays

end
-- ==== Proof.Result.lean ====
/- The kernel's result, end to end.

   After the region its two arrays hold: for every point of the first cloud the least (augmented-form) distance to the
   second cloud — the 32 tiles' row minima side by side; and, per core, for every point of the second cloud the least
   distance from that core's half of the first cloud. The host takes the minimum of the two halves — the infimum over
   the whole first cloud — and the two means. With every coordinate real the augmented-form distance is the expanded
   square, so the two arrays are the reference's two minima, and the means of equal arrays by the same operations are
   equal: the kernel's result is the reference's own function of the two clouds. -/
import proofs.«155492_j3762391351367_2_alg».proof.Proof.Running
import proofs.«155492_j3762391351367_2_alg».proof.Proof.RefRead
import proofs.«155492_j3762391351367_2_alg».proof.Proof.Arrays
import Idealize.ShloMosaic.Lib.StableHlo.Run
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Result

open Cert.KernelIdeal Cert.KernelIdeal.Gen Idealize.ShloMosaic.ValueIdx Chamfer
open Cert.KernelIdeal.Tile Cert.KernelIdeal.Blocks Cert.KernelIdeal.Running

variable (m : (ℓ : Loc nD τ sig) → Buf (Elt Ideal) ℓ)

/-! ## The host's minimum over the two cores' halves -/

theorem halves_reduces : S2x8x4096.Reduces [0] S8x4096 := by decide

/-- Entry (b, j) of the column minima with the core `k` put back is entry (k, b, j) of the two halves. -/
theorem halves_lift (h : S2x8x4096.Reduces [0] S8x4096) (b : Fin 8) (j : Fin 4096) (k : Fin (S2x8x4096.size 0)) :
    h.lift (ix2 b j) k = ix3 (⟨k.val, k.isLt⟩ : Fin 2) b j := by
  funext c; apply Fin.ext
  fin_cases c <;> rfl

/-- The host's minimum from +∞ over the leading axis of the two halves is the infimum over the two cores. -/
theorem halves_min (P : FVec Ideal S2x8x4096 .f32) (b : Fin 8) (j : Fin 4096) :
    Host.reduce FloatOps.minimumf P (constant (F := Ideal) S_ .f32 0x7F800000#32) reducesTo_S2x8x4096_S8x4096_d0 h_S_ (ix2 b j)
      = ⨅ k : Fin 2, P (ix3 k b j) := by
  refine (Host.reduce_eq_fold_single FloatOps.minimumf P _ reducesTo_S2x8x4096_S8x4096_d0 halves_reduces h_S_ (ix2 b j)).trans ?_
  have hf : (P ∘ halves_reduces.lift (ix2 b j)) = fun k : Fin 2 => P (ix3 k b j) :=
    funext fun k => congrArg P (halves_lift halves_reduces b j k)
  rw [hf]
  show Finset.fold min (Ideal.ofBits .f32 0x7F800000#32) _ _ = _
  rw [ofBits_inf]
  exact fold_min_top (N := 2) _

/-! ## The two result arrays of the region -/

/-- After the region the first result holds, for every point of the first cloud, the least distance to the second. -/
theorem rows_final (c : Dev nD) : (dats m 0 c).arrAt 2 cfg0.N
    = fun i : S8x4096.Idx => ⨅ j : Fin 4096, kdist (cloudX m c) (cloudY m c) (i 0) (i 1) j :=
  Arrays.final2 m c (fun b p => ⨅ j : Fin 4096, kdist (cloudX m c) (cloudY m c) b p j)
    (fun t b r => (inv m c t.val t.isLt).row b r)

/-- The second holds, per core, the least distance from that core's 2048 points to every point of the second cloud. -/
theorem halves_final (c : Dev nD) : (dats m 0 c).arrAt 3 cfg0.N
    = fun i : S2x8x4096.Idx => minRows (2048 * (i 0).val) (2048 * ((i 0).val + 1))
        (fun p => kdist (cloudX m c) (cloudY m c) (i 1) p (i 2)) :=
  Arrays.final3 m c (fun k b j => minRows (2048 * k.val) (2048 * (k.val + 1)) (fun p => kdist (cloudX m c) (cloudY m c) b p j))
    (fun t h15 u b j => by
      have hN : t.val < 32 := lt_of_lt_of_eq t.isLt N_0
      have e1 : 128 * (t.val - 15) = 2048 * (t.val / 16) := by omega
      have e2 : 128 * (t.val + 1) = 2048 * (t.val / 16 + 1) := by omega
      rw [(inv m c t.val t.isLt).out h15 u b j, e1, e2])

/-! ## The kernel's result is the reference's function of the two clouds -/

/-- With every coordinate real, @main's result after the host tail — the two means of the two minima — is the
    reference's own term of the same two clouds. -/
theorem result_eq (c : Dev nD)
    (hX : ∀ i, ∃ r : ℝ, cloudX m c i = (r : EReal)) (hY : ∀ i, ∃ r : ℝ, cloudY m c i = (r : EReal)) :
    Pipeline.afterTail₀ cfgs (dats m) 0 (V0 m) [hostOps1] c main_v10
      = Cert.ReferenceIdeal.Read.val_main_v21 (F := Ideal) (cloudX m c) (cloudY m c) := by
  have hd : ∀ (b : Fin 8) (p j : Fin 4096), kdist (cloudX m c) (cloudY m c) b p j
      = expDist (point (cloudX m c) b p) (point (cloudY m c) b j) :=
    fun b p j => augDist_eq_expDist _ _ (fun d => hX _) (fun d => hY _)
  have e2 : Pipeline.withArrays (cfgs 0).spec c (V0 m c) (fun w => (dats m 0 c).arrAt w (cfgs 0).N)
      (Proc.devRef .tc main_v2_0) = (dats m 0 c).arrAt 2 cfg0.N :=
    Pipeline.withArrays_arr spec0 launch0.win.arr_inj c _ _ 2
  have e3 : Pipeline.withArrays (cfgs 0).spec c (V0 m c) (fun w => (dats m 0 c).arrAt w (cfgs 0).N)
      (Proc.devRef .tc main_v2_1) = (dats m 0 c).arrAt 3 cfg0.N :=
    Pipeline.withArrays_arr spec0 launch0.win.arr_inj c _ _ 3
  have hA : (dats m 0 c).arrAt 2 cfg0.N
      = Cert.ReferenceIdeal.Read.val_main_v13 (F := Ideal) (cloudX m c) (cloudY m c) := by
    rw [rows_final]
    funext i
    obtain ⟨b, n, rfl⟩ : ∃ (b : Fin 8) (n : Fin 4096), i = ix2 b n := ⟨i 0, i 1, eq_ix2 i⟩
    show (⨅ j : Fin 4096, kdist (cloudX m c) (cloudY m c) b n j) = _
    rw [ref_minXY]
    exact iInf_congr fun j => hd b n j
  have hB : Host.reduce FloatOps.minimumf ((dats m 0 c).arrAt 3 cfg0.N) (constant (F := Ideal) S_ .f32 0x7F800000#32)
      reducesTo_S2x8x4096_S8x4096_d0 h_S_
      = Cert.ReferenceIdeal.Read.val_main_v14 (F := Ideal) (cloudX m c) (cloudY m c) := by
    rw [halves_final]
    funext i
    obtain ⟨b, j, rfl⟩ : ∃ (b : Fin 8) (j : Fin 4096), i = ix2 b j := ⟨i 0, i 1, eq_ix2 i⟩
    refine (halves_min _ b j).trans ?_
    show (⨅ k : Fin 2, minRows (2048 * k.val) (2048 * (k.val + 1)) (fun p => kdist (cloudX m c) (cloudY m c) b p j)) = _
    rw [ref_minYX]
    exact (iInf_halves (fun p => kdist (cloudX m c) (cloudY m c) b p j)).trans (iInf_congr fun p => hd b p j)
  unfold Pipeline.afterTail₀
  show StableHlo.after hostOps1 _ (Proc.devRef .tc main_v10) = _
  after_results
  rw [e2, e3, hA, hB]
  rfl

end Cert.KernelIdeal.Result
end
-- ==== Proof.lean ====
/- Chamfer distance between two batches of point clouds: the certificate's five claims.

   Both programs take 8 pairs of clouds of 4096 points of ℝ³ and return, per pair, the mean over the first cloud of the
   squared distance to the nearest point of the second, plus the mean over the second cloud of the squared distance to
   the nearest point of the first. The reference forms the whole 4096 × 4096 matrix of squared distances in the
   expanded form |x|² + |y|² − 2⟨x, y⟩ and takes its row and column minima. The kernel walks the first cloud in 32
   tiles of 128 points, two cores taking 16 tiles each: per tile it computes the tile's rows of the matrix as ONE
   product of augmented operands, ⟨[-2x; |x|²; 1], [y; 1; |y|²]⟩, writes their row minima, and lowers a running
   column minimum that each core copies out after its last tile; the host then takes the minimum of the two cores'
   halves and the two means.

   At the exact values, with every coordinate a real number (the precondition), the augmented product is the expanded
   square (a ring identity over ℝ); a minimum from +∞ over a finite family is its infimum, and an infimum over all
   4096 points is the infimum over the two halves of the infima over their tiles; the two means are the same
   operations of the same two arrays. So the results agree. The three frames are the generated runs; the kernel's
   idealization rewrote nothing. -/
import proofs.«155492_j3762391351367_2_alg».proof.Defs
import proofs.«155492_j3762391351367_2_alg».proof.Proof.Gen.Kernel
import proofs.«155492_j3762391351367_2_alg».proof.Proof.Gen.Kernel.Skeleton
import proofs.«155492_j3762391351367_2_alg».proof.Proof.Gen.Kernel.Launch
import proofs.«155492_j3762391351367_2_alg».proof.Proof.Gen.Kernel.Points
import proofs.«155492_j3762391351367_2_alg».proof.Proof.Gen.Kernel.Frame
import proofs.«155492_j3762391351367_2_alg».proof.Proof.Gen.KernelIdeal
import proofs.«155492_j3762391351367_2_alg».proof.Proof.Gen.KernelIdeal.Skeleton
import proofs.«155492_j3762391351367_2_alg».proof.Proof.Gen.KernelIdeal.Launch
import proofs.«155492_j3762391351367_2_alg».proof.Proof.Gen.KernelIdeal.Points
import proofs.«155492_j3762391351367_2_alg».proof.Proof.Gen.KernelIdeal.Frame
import proofs.«155492_j3762391351367_2_alg».proof.Proof.Gen.ReferenceIdeal
import proofs.«155492_j3762391351367_2_alg».proof.Proof.Gen.ReferenceIdeal.Run
import proofs.«155492_j3762391351367_2_alg».proof.Proof.Gen.ReferenceIdeal.Read
import proofs.«155492_j3762391351367_2_alg».proof.Proof.Gen.Pre_finite_inputs
import proofs.«155492_j3762391351367_2_alg».proof.Proof.FiniteInputs
import proofs.«155492_j3762391351367_2_alg».proof.Proof.Result
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read at the exact values. -/
theorem frame_ki : Cert.frame_KernelIdeal := fun m ρ _ => Cert.KernelIdeal.Gen.frame m ρ

/-- The reference is a straight line of host operations: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The two programs, from memories agreeing on the two clouds, end with the same eight numbers: the kernel's run
    leaves @main's result at the host tail's term of the region's two arrays, which under the precondition is the
    reference's own term of the clouds; the reference's run leaves its result at that term. -/
theorem algebraic : Cert.algebraic_KernelIdeal_ReferenceIdeal := by
  intro m ρ m' ρ' hpre hagree
  refine ⟨fun c => Cert.ReferenceIdeal.Read.val_main_v21 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ?_) (Cert.KernelIdeal.Gen.run_main m ρ)
    obtain ⟨hX, hY⟩ := Chamfer.finite_of_pre _ _ (hpre c)
    exact ⟨((h c).2 Cert.KernelIdeal.main_v10 (Pipeline.mem_restRefs_of Cert.KernelIdeal.main_v10 (by decide) (by decide))).trans
        (Cert.KernelIdeal.Result.result_eq m c hX hY),
      ((h c).2 Cert.KernelIdeal.main_arg0 (Pipeline.mem_restRefs_of Cert.KernelIdeal.main_arg0 (by decide) (by decide))).trans
        (Cert.KernelIdeal.Gen.W_main_arg0 m (Cert.KernelIdeal.Gen.dats m) c),
      ((h c).2 Cert.KernelIdeal.main_arg1 (Pipeline.mem_restRefs_of Cert.KernelIdeal.main_arg1 (by decide) (by decide))).trans
        (Cert.KernelIdeal.Gen.W_main_arg1 m (Cert.KernelIdeal.Gen.dats m) c)⟩
  · refine (θ_run Cert.ReferenceIdeal.defs _ _).mono (fun _ h c => ⟨?_, (h c).2.1, (h c).2.2⟩)
      (Cert.ReferenceIdeal.Value.run (F := Ideal) m' ρ')
    rw [(h c).1, Cert.ReferenceIdeal.Read.val_main_v21_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
